-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S2x1600000 : Shape := ⟨2, ![2, 1600000]⟩
abbrev S384x128 : Shape := ⟨2, ![384, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg8 : FVec F S3x128 .f32) (main_arg9 : FVec F S3x128 .f32) (main_arg10 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S3x128x128 .f32) (main_arg8 : FVec F S3x128 .f32) (main_arg9 : FVec F S3x128 .f32) (main_arg10 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S1600000 .f32) (main_arg2 : IVec S2x1600000 32) (main_arg3 : FVec F S384x128 .f32) (main_arg4 : FVec F S128 .f32) (main_arg5 : FVec F S128 .f32) (main_arg6 : FVec F S128 .f32) (main_arg7 : FVec F S3x128x128 .f32) (main_arg8 : FVec F S3x128 .f32) (main_arg9 : FVec F S3x128 .f32) (main_arg10 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S1600000 : Shape := ⟨1, ![1600000]⟩
abbrev S2x1600000 : Shape := ⟨2, ![2, 1600000]⟩
abbrev S384x128 : Shape := ⟨2, ![384, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S128x128 : Shape := ⟨2, ![128, 128]⟩
abbrev S4000x128 : Shape := ⟨2, ![4000, 128]⟩
abbrev S1x128 : Shape := ⟨2, ![1, 128]⟩
abbrev S4000 : Shape := ⟨1, ![4000]⟩
abbrev S4000x1 : Shape := ⟨2, ![4000, 1]⟩
abbrev S1x128x128 : Shape := ⟨3, ![1, 128, 128]⟩

abbrev nBuf : Space → Nat
  | .hbm => 54
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S2x1600000, .i32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S128x128, .f32⟩
  | .hbm, ⟨47, _⟩ => ⟨S128x128, .bf16⟩
  | .hbm, ⟨48, _⟩ => ⟨S128x128, .f32⟩
  | .hbm, ⟨49, _⟩ => ⟨S128x128, .bf16⟩
  | .hbm, ⟨50, _⟩ => ⟨S128x128, .f32⟩
  | .hbm, ⟨51, _⟩ => ⟨S128x128, .bf16⟩
  | .hbm, ⟨52, _⟩ => ⟨S3x128x128, .bf16⟩
  | .hbm, ⟨53, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S3x128x128, .bf16⟩
  | .local _ .vmem, ⟨13, _⟩ => ⟨S3x128, .f32⟩
  | .local _ .vmem, ⟨14, _⟩ => ⟨S3x128, .f32⟩
  | .local _ .vmem, ⟨15, _⟩ => ⟨S3x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128x128.size a ≤ S3x128x128.size a
  hwx0_9 : ∀ i : grid0.Coords, EltTy.bits .bf16 = 32 ∨ (Rect.block (s := S3x128x128) S3x128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x128.size a ≤ S3x128.size a
  hwx0_10 : ∀ i : grid0.Coords, EltTy.bits .f32 = 32 ∨ (Rect.block (s := S3x128) S3x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x128.size a ≤ S3x128.size a
  hwx0_11 : ∀ i : grid0.Coords, EltTy.bits .f32 = 32 ∨ (Rect.block (s := S3x128) S3x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x128.size a ≤ S3x128.size a
  hwx0_12 : ∀ i : grid0.Coords, EltTy.bits .f32 = 32 ∨ (Rect.block (s := S3x128) S3x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x128.size a ≤ S100000x128.size a
  hwx0_13 : ∀ i : grid0.Coords, EltTy.bits .f32 = 32 ∨ (Rect.block (s := S100000x128) S4000x128.size (cc0_transform_13 i) (hinb0_13 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S3x128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S3x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S3x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S3x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36) S4000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S2x1600000 : Shape := ⟨2, ![2, 1600000]⟩
abbrev S384x128 : Shape := ⟨2, ![384, 128]⟩
abbrev S128 : Shape := ⟨1, ![128]⟩
abbrev S3x128x128 : Shape := ⟨3, ![3, 128, 128]⟩
abbrev S3x128 : Shape := ⟨2, ![3, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S100000x384 : Shape := ⟨2, ![100000, 384]⟩
abbrev S1x128 : Shape := ⟨2, ![1, 128]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S1600000, .f32⟩
  | 2 => ⟨S2x1600000, .i32⟩
  | 3 => ⟨S384x128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S1x1600000, .i32⟩
  | 12 => ⟨S1600000, .i32⟩
  | 13 => ⟨S1x1600000, .i32⟩
  | 14 => ⟨S1600000, .i32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S1600000x128, .f32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S100000x384, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S100000x128, .f32⟩
  | 81 => ⟨S1x128x128, .f32⟩
  | 82 => ⟨S128x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S128, .f32⟩
  | 93 => ⟨S_, .f32⟩
  | 94 => ⟨S100000, .f32⟩
  | 95 => ⟨S100000x1, .f32⟩
  | 96 => ⟨S_, .f32⟩
  | 97 => ⟨S100000x1, .f32⟩
  | 98 => ⟨S100000x1, .f32⟩
  | 99 => ⟨S100000x128, .f32⟩
  | 100 => ⟨S100000x128, .f32⟩
  | 101 => ⟨S100000x128, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S_, .f32⟩
  | 111 => ⟨S100000x1, .f32⟩
  | 112 => ⟨S100000x1, .f32⟩
  | 113 => ⟨S100000x1, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S100000, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S_, .f32⟩
  | 25 => ⟨S100000x1, .f32⟩
  | 26 => ⟨S100000x1, .f32⟩
  | 27 => ⟨S100000x1, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S100000x128, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x128, .f32⟩
  | 65 => ⟨S100000x128, .f32⟩
  | 66 => ⟨S_, .f32⟩
  | 67 => ⟨S100000x1, .f32⟩
  | 68 => ⟨S100000x1, .f32⟩
  | 69 => ⟨S100000x1, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_13 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_14 : Ref sig .tc := ⟨.hbm, 135, rfl⟩
abbrev main_v108 : Ref sig .tc := ⟨.hbm, 136, rfl⟩
abbrev main_v109 : Ref sig .tc := ⟨.hbm, 137, rfl⟩
abbrev main_cst_15 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_16 : Ref sig .tc := ⟨.hbm, 144, rfl⟩
abbrev main_v115 : Ref sig .tc := ⟨.hbm, 145, rfl⟩
abbrev main_v116 : Ref sig .tc := ⟨.hbm, 146, rfl⟩
abbrev main_cst_17 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_18 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_19 : Ref sig .tc := ⟨.hbm, 177, rfl⟩
abbrev main_v145 : Ref sig .tc := ⟨.hbm, 178, rfl⟩
abbrev main_v146 : Ref sig .tc := ⟨.hbm, 179, rfl⟩
abbrev main_cst_20 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_21 : Ref sig .tc := ⟨.hbm, 186, rfl⟩
abbrev main_v152 : Ref sig .tc := ⟨.hbm, 187, rfl⟩
abbrev main_v153 : Ref sig .tc := ⟨.hbm, 188, rfl⟩
abbrev main_cst_22 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_23 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Aggregate.lean ====
/-
  The messages a node receives, as the host computes them before the network runs.

  The edge list is a 2 × E array of node numbers: row 0 the edges' start nodes, row 1 their end nodes.  Each edge carries
  one weight.  For a choice of "source" and "destination" rows, every edge gathers its source node's feature row (a
  negative node number counted from the end, as jax indexes), multiplies it by the edge's weight, and adds the product
  into its destination node's row of an array of zeros.  With sources the start nodes this is the sum over a node's
  incoming edges; with sources the end nodes, over its outgoing edges.  The kernel's program and the reference compute
  these two arrays by the same operations, so they are named here once and never opened.
-/
import proofs.«101905_j14233521619351_2_alg».proof.Proof.Gen.KernelIdeal
import Idealize.ShloMosaic.PureOps.Ideal

noncomputable section

namespace Cert.KernelIdeal.Agg

open Idealize.ShloMosaic Cert.KernelIdeal Cert.KernelIdeal.Gen

/-- Row 0 of the edge list: the start node of every edge. -/
def starts (ei : IVec S2x1600000 32) : IVec S1600000 32 :=
  shapeCast S1600000 (extractStridedSlice S1x1600000 ![0, 0] ei slices_S2x1600000_S1x1600000_0_0) shapeCasts_S1x1600000_S1600000

/-- Row 1 of the edge list: the end node of every edge. -/
def ends (ei : IVec S2x1600000 32) : IVec S1600000 32 :=
  shapeCast S1600000 (extractStridedSlice S1x1600000 ![1, 0] ei slices_S2x1600000_S1x1600000_1_0) shapeCasts_S1x1600000_S1600000

/-- A negative node number counts from the end: 100000 is added to it. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- Every edge's weight times its source node's feature row, summed into its destination node's row. -/
def msgSum (x : FVec Ideal S100000x128 .f32) (e : FVec Ideal S1600000 .f32)
    (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (broadcastInDim S1600000x128 ![0, 1] bcast_S1600000x1_S1600000x128_0_1
        (broadcastInDim S1600000x1 ![0] bcast_S1600000_S1600000x1_0 e))
      (Host.gather gather_S100000x128_S1600000x1_S1600000x128_1_0_n_n_0_1_1128 x
        (broadcastInDim S1600000x1 ![0] bcast_S1600000_S1600000x1_0 (wrap src))))

end Cert.KernelIdeal.Agg

end
-- ==== Proof.KernelEntry.lean ====
/-
  What the network's kernel finds in its operand arrays when it starts.

  Before the kernel runs, the host sums the messages over incoming and over outgoing edges (`Agg.msgSum`), cuts the
  first weight matrix into its three 128-row blocks and changes the format of the weights (no change of value over the
  extended reals).  Each of these arrays is read here as a function of the program's arguments.
-/
import proofs.«101905_j14233521619351_2_alg».proof.Proof.Gen.KernelIdeal.Frame
import proofs.«101905_j14233521619351_2_alg».proof.Proof.Aggregate
import Idealize.ShloMosaic.Lib.StableHlo.Run
import Idealize.ShloMosaic.Lib.ValueLayout

noncomputable section

namespace Cert.KernelIdeal.Entry

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 8192 in
set_option maxHeartbeats 1600000 in
/-- The messages summed over incoming edges: sources the start nodes, destinations the end nodes. -/
theorem V_mi (c : Dev nD) :
    @Eq (FVec Ideal S100000x128 .f32) (V m c main_v16)
      (Agg.msgSum (m ((c : Thread nD τ).loc main_arg0)) (m ((c : Thread nD τ).loc main_arg1))
          (Agg.starts (m ((c : Thread nD τ).loc main_arg2))) (Agg.ends (m ((c : Thread nD τ).loc main_arg2)))) := by
  show StableHlo.after hostOps0 (fun b => m (c, b)) (Proc.devRef .tc main_v16) = _
  simp only [hostOps0]
  after_results_simp
  rfl

set_option maxRecDepth 8192 in
set_option maxHeartbeats 1600000 in
/-- The messages summed over outgoing edges: sources the end nodes, destinations the start nodes. -/
theorem V_mo (c : Dev nD) :
    @Eq (FVec Ideal S100000x128 .f32) (V m c main_v28)
      (Agg.msgSum (m ((c : Thread nD τ).loc main_arg0)) (m ((c : Thread nD τ).loc main_arg1))
          (Agg.ends (m ((c : Thread nD τ).loc main_arg2))) (Agg.starts (m ((c : Thread nD τ).loc main_arg2)))) := by
  show StableHlo.after hostOps0 (fun b => m (c, b)) (Proc.devRef .tc main_v28) = _
  simp only [hostOps0]
  after_results_simp
  rfl

set_option maxRecDepth 8192 in
set_option maxHeartbeats 1600000 in
/-- Rows 0 … 127 of the first weight matrix. -/
theorem V_w0a (c : Dev nD) (k q : Fin 128) :
    (V m c main_v30 : S128x128.Idx → EReal) (ix2 k q)
      = (m ((c : Thread nD τ).loc main_arg3) : S384x128.Idx → EReal) (ix2 (⟨k.val, by omega⟩ : Fin 384) q) := by
  have e : @Eq (FVec Ideal S128x128 .bf16) (V m c main_v30)
      (truncf (F := Ideal) .bf16 (extractStridedSlice S128x128 ![0, 0] (m ((c : Thread nD τ).loc main_arg3)) slices_S384x128_S128x128_0_0) bitsLt_bf16_f32) := by
    show StableHlo.after hostOps0 (fun b => m (c, b)) (Proc.devRef .tc main_v30) = _
    simp only [hostOps0]
    after_results_simp
  rw [e, truncf_apply]
  exact slice2_axis0_apply 0 _ _ k q _ (by simp)

set_option maxRecDepth 8192 in
set_option maxHeartbeats 1600000 in
/-- Rows 128 … 255 of the first weight matrix. -/
theorem V_w0b (c : Dev nD) (k q : Fin 128) :
    (V m c main_v32 : S128x128.Idx → EReal) (ix2 k q)
      = (m ((c : Thread nD τ).loc main_arg3) : S384x128.Idx → EReal) (ix2 (⟨128 + k.val, by omega⟩ : Fin 384) q) := by
  have e : @Eq (FVec Ideal S128x128 .bf16) (V m c main_v32)
      (truncf (F := Ideal) .bf16 (extractStridedSlice S128x128 ![128, 0] (m ((c : Thread nD τ).loc main_arg3)) slices_S384x128_S128x128_128_0) bitsLt_bf16_f32) := by
    show StableHlo.after hostOps0 (fun b => m (c, b)) (Proc.devRef .tc main_v32) = _
    simp only [hostOps0]
    after_results_simp
  rw [e, truncf_apply]
  exact slice2_axis0_apply 128 _ _ k q _ rfl

set_option maxRecDepth 8192 in
set_option maxHeartbeats 1600000 in
/-- Rows 256 … 383 of the first weight matrix. -/
theorem V_w0c (c : Dev nD) (k q : Fin 128) :
    (V m c main_v34 : S128x128.Idx → EReal) (ix2 k q)
      = (m ((c : Thread nD τ).loc main_arg3) : S384x128.Idx → EReal) (ix2 (⟨256 + k.val, by omega⟩ : Fin 384) q) := by
  have e : @Eq (FVec Ideal S128x128 .bf16) (V m c main_v34)
      (truncf (F := Ideal) .bf16 (extractStridedSlice S128x128 ![256, 0] (m ((c : Thread nD τ).loc main_arg3)) slices_S384x128_S128x128_256_0) bitsLt_bf16_f32) := by
    show StableHlo.after hostOps0 (fun b => m (c, b)) (Proc.devRef .tc main_v34) = _
    simp only [hostOps0]
    after_results_simp
  rw [e, truncf_apply]
  exact slice2_axis0_apply 256 _ _ k q _ rfl

set_option maxRecDepth 8192 in
set_option maxHeartbeats 1600000 in
/-- The stack of the three further weight matrices, its format changed. -/
theorem V_w (c : Dev nD) (i : S3x128x128.Idx) :
    (V m c main_v35 : S3x128x128.Idx → EReal) i = (m ((c : Thread nD τ).loc main_arg7) : S3x128x128.Idx → EReal) i := by
  have e : @Eq (FVec Ideal S3x128x128 .bf16) (V m c main_v35)
      (truncf (F := Ideal) .bf16 (m ((c : Thread nD τ).loc main_arg7)) bitsLt_bf16_f32) := by
    show StableHlo.after hostOps0 (fun b => m (c, b)) (Proc.devRef .tc main_v35) = _
    simp only [hostOps0]
    after_results_simp
  rw [e, truncf_apply]

end Cert.KernelIdeal.Entry

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibNormLayer.lean ====
/-
  A dense layer and a layer normalisation followed by the hyperbolic tangent, along the rows of an n × m matrix: as
  functions of ONE row, and as a vector unit and a host program spell them for all rows at once, read at an entry.
  General in the extents and in the literals.

  For a row z of m extended reals and a divisor d, the mean is (Σₖ zₖ) / d, the deviation of entry k is zₖ − mean, the
  variance is the mean of the squared deviations, and the normalised entry is deviation · rsqrt (variance + ε); scaled
  by g, shifted by β and passed through tanh it is the layer's output.  A program computes these for every row together:
  a sum along axis 1 made into a column, divided by a spread constant, spread back over the columns, and so on.  Every
  lemma below reads one such array expression at (p, c) and takes what it needs to know of its operands at row p as
  hypotheses — so they chain through any number of layers without opening the earlier ones.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«101905_j14233521619351_2_alg».proof.Proof.LibColumns
import proofs.«101905_j14233521619351_2_alg».proof.Proof.LibPlainDot

noncomputable section

open scoped BigOperators

namespace Cert.NormLayer

open Idealize.ShloMosaic Idealize.ShloMosaic.ValueIdx

/-! ## One row -/

section Row

variable {m : ℕ}

/-- The mean of a row with divisor `d`: (Σₖ zₖ) / d. -/
def mean (d : EReal) (z : Fin m → EReal) : EReal := Ideal.div (∑ k : Fin m, z k) d

/-- Entry `k` less the row's mean. -/
def dev (d : EReal) (z : Fin m → EReal) (k : Fin m) : EReal := z k - mean d z

/-- The mean of the squared deviations. -/
def var (d : EReal) (z : Fin m → EReal) : EReal := mean d fun k => dev d z k * dev d z k

/-- The normalised entry: deviation · rsqrt (variance + ε). -/
def normed (d ε : EReal) (z : Fin m → EReal) (c : Fin m) : EReal := dev d z c * Ideal.rsqrt (var d z + ε)

/-- Normalised, scaled by `g`, shifted by `β`, through tanh. -/
def normTanh (d ε : EReal) (z g β : Fin m → EReal) (c : Fin m) : EReal := Ideal.tanh (normed d ε z c * g c + β c)

/-- A dense layer on one row: Σₖ hₖ · w k c + b c. -/
def dense {K : ℕ} (h : Fin K → EReal) (w : Fin K → Fin m → EReal) (b : Fin m → EReal) (c : Fin m) : EReal :=
  (∑ k : Fin K, h k * w k c) + b c

end Row

/-! ## Spreads read at an entry -/

section Spreads

variable {α : Type} {n m : ℕ}

/-- A vector of `n` entries spread as an n × 1 column (dims [0]) reads at (p, q) its entry p. -/
theorem bcastCol_apply (x : (⟨1, ![n]⟩ : Shape).Idx → α)
    (h : (⟨1, ![n]⟩ : Shape).BroadcastsInDim (⟨2, ![n, 1]⟩ : Shape) (![0] : Fin 1 → Fin 2)) (p : Fin n) (q : Fin 1) :
    broadcastInDim (⟨2, ![n, 1]⟩ : Shape) ![0] h x (ix2 p q) = x (ix1 p) := by
  refine broadcastInDim_apply ![0] h x (ix2 p q) (ix1 p) fun a => ?_
  match a with
  | ⟨0, _⟩ =>
    show p.val = if n = 1 then 0 else p.val
    split
    · have := p.isLt; omega
    · rfl

/-- An n × 1 column spread over m columns (dims [0, 1]) reads at (p, c) the column's entry p. -/
theorem bcastCols_apply (v : (⟨2, ![n, 1]⟩ : Shape).Idx → α)
    (h : (⟨2, ![n, 1]⟩ : Shape).BroadcastsInDim (⟨2, ![n, m]⟩ : Shape) (![0, 1] : Fin 2 → Fin 2)) (p : Fin n) (c : Fin m) :
    broadcastInDim (⟨2, ![n, m]⟩ : Shape) ![0, 1] h v (ix2 p c) = v (ix2 p (0 : Fin 1)) := by
  refine broadcastInDim_apply ![0, 1] h v (ix2 p c) (ix2 p (0 : Fin 1)) fun a => ?_
  match a with
  | ⟨0, _⟩ =>
    show p.val = if n = 1 then 0 else p.val
    split
    · have := p.isLt; omega
    · rfl
  | ⟨1, _⟩ =>
    show 0 = if (1 : ℕ) = 1 then 0 else c.val
    rw [if_pos rfl]

/-- A vector of `m` entries spread to a 1 × m row (dims [1]) and then over n rows (dims [0, 1]) reads at (p, c) its entry c. -/
theorem bcastRow_apply (b : (⟨1, ![m]⟩ : Shape).Idx → α)
    (hb1 : (⟨1, ![m]⟩ : Shape).BroadcastsInDim (⟨2, ![1, m]⟩ : Shape) (![1] : Fin 1 → Fin 2))
    (hb2 : (⟨2, ![1, m]⟩ : Shape).BroadcastsInDim (⟨2, ![n, m]⟩ : Shape) (![0, 1] : Fin 2 → Fin 2)) (p : Fin n) (c : Fin m) :
    broadcastInDim (⟨2, ![n, m]⟩ : Shape) ![0, 1] hb2 (broadcastInDim (⟨2, ![1, m]⟩ : Shape) ![1] hb1 b) (ix2 p c) = b (ix1 c) := by
  rw [broadcastInDim_apply ![0, 1] hb2 _ (ix2 p c) (ix2 (0 : Fin 1) c) (fun a => by
    match a with
    | ⟨0, _⟩ => show 0 = if (1 : ℕ) = 1 then 0 else p.val; rw [if_pos rfl]
    | ⟨1, _⟩ =>
      show c.val = if m = 1 then 0 else c.val
      split
      · have := c.isLt; omega
      · rfl)]
  exact broadcastInDim_apply ![1] hb1 b (ix2 (0 : Fin 1) c) (ix1 c) (fun a => by
    match a with
    | ⟨0, _⟩ =>
      show c.val = if m = 1 then 0 else c.val
      split
      · have := c.isLt; omega
      · rfl)

end Spreads

/-! ## The vector unit's spelling -/

section Vector

variable {n m : ℕ}

/-- The row sum recast as a column and divided by a spread constant is the row's mean. -/
theorem vecMean_apply (z : FVec Ideal (⟨2, ![n, m]⟩ : Shape) .f32) (acc : BitVec (FTy.f32).bits)
    (hred : (⟨2, ![n, m]⟩ : Shape).Reduces [1] ⟨1, ![n]⟩) (hφ : FKind.Formats .f32) (hacc : acc = FKind.add.neutral .f32 hφ)
    (hsc : (⟨1, ![n]⟩ : Shape).ShapeCasts ⟨2, ![n, 1]⟩) (wd : BitVec (FTy.f32).bits)
    (p : Fin n) (q : Fin 1) (zr : Fin m → EReal) (hz : ∀ k, z (ix2 p k) = zr k) :
    divf (shapeCast (⟨2, ![n, 1]⟩ : Shape) (multiReduction .add [1] (⟨1, ![n]⟩ : Shape) z acc hred hφ hacc) hsc)
        (broadcast (⟨2, ![n, 1]⟩ : Shape) (Scalar.ofBits (F := Ideal) .f32 wd)) (ix2 p q)
      = mean (Ideal.ofBits .f32 wd) zr := by
  unfold mean
  rw [divf_apply, LibColumns.shapeCast_a_a1_apply _ hsc p q, LibColumns.rowSum_apply z acc hred hφ hacc p,
    Finset.sum_congr rfl fun k _ => hz k]
  rfl

/-- (Z − M) · spread (rsqrt (V + ε)) at (p, c), from the three operands at row p. -/
theorem vecNormed_apply (Z M : FVec Ideal (⟨2, ![n, m]⟩ : Shape) .f32) (V : FVec Ideal (⟨2, ![n, 1]⟩ : Shape) .f32)
    (wε : BitVec (FTy.f32).bits) (hb : (⟨2, ![n, 1]⟩ : Shape).Broadcasts ⟨2, ![n, m]⟩) (p : Fin n) (c : Fin m)
    (zc mu v : EReal) (hZ : Z (ix2 p c) = zc) (hM : M (ix2 p c) = mu) (hV : V (ix2 p (0 : Fin 1)) = v) :
    mulf (subf Z M) (broadcastTo (⟨2, ![n, m]⟩ : Shape)
        (rsqrt (addf V (broadcast (⟨2, ![n, 1]⟩ : Shape) (Scalar.ofBits (F := Ideal) .f32 wε)))) hb) (ix2 p c)
      = (zc - mu) * Ideal.rsqrt (v + Ideal.ofBits .f32 wε) := by
  rw [mulf_apply, subf_apply, LibColumns.broadcastTo_a1_ab_apply _ hb p c, hZ, hM]
  show _ * Ideal.rsqrt (V (ix2 p (0 : Fin 1)) + Ideal.ofBits .f32 wε) = _
  rw [hV]

/-- tanh (N · spread g + spread β) at (p, c), with g and β stored as 1 × m rows. -/
theorem vecScaleShiftTanh_apply (N : FVec Ideal (⟨2, ![n, m]⟩ : Shape) .f32) (g β : FVec Ideal (⟨2, ![1, m]⟩ : Shape) .f32)
    (hbr : (⟨2, ![1, m]⟩ : Shape).Broadcasts ⟨2, ![n, m]⟩) (p : Fin n) (c : Fin m)
    (x gc βc : EReal) (hN : N (ix2 p c) = x) (hg : g (ix2 (0 : Fin 1) c) = gc) (hβ : β (ix2 (0 : Fin 1) c) = βc) :
    tanh (addf (mulf N (broadcastTo (⟨2, ![n, m]⟩ : Shape) g hbr)) (broadcastTo (⟨2, ![n, m]⟩ : Shape) β hbr)) (ix2 p c)
      = Ideal.tanh (x * gc + βc) := by
  show Ideal.tanh (N (ix2 p c) * broadcastTo (⟨2, ![n, m]⟩ : Shape) g hbr (ix2 p c)
    + broadcastTo (⟨2, ![n, m]⟩ : Shape) β hbr (ix2 p c)) = _
  rw [broadcastTo_1b_ab_apply g hbr p c, broadcastTo_1b_ab_apply β hbr p c, hN, hg, hβ]

/-- A matrix product into the zero accumulator plus a bias row spread over the rows, at (p, c), from row p of the left
    operand: Σₖ hₖ · w (k, c) + b (0, c).  The four coordinate facts and the contraction's one axis are what a program's
    literal dimension numbers decide. -/
theorem vecDense_apply {K : ℕ} {φ₁ φ₂ : FTy}
    (D : DotDims (⟨2, ![n, K]⟩ : Shape) (⟨2, ![K, m]⟩ : Shape) (⟨2, ![n, m]⟩ : Shape))
    (hr : D.contr.rank = 1) (hs : D.contr.size ⟨0, by omega⟩ = K)
    (l0 : ∀ (i : (⟨2, ![n, m]⟩ : Shape).Idx) (q : D.contr.Idx), (D.lhsIdx i q 0).val = (i 0).val)
    (l1 : ∀ (i : (⟨2, ![n, m]⟩ : Shape).Idx) (q : D.contr.Idx), (D.lhsIdx i q 1).val = (q ⟨0, by omega⟩).val)
    (r0 : ∀ (i : (⟨2, ![n, m]⟩ : Shape).Idx) (q : D.contr.Idx), (D.rhsIdx i q 0).val = (q ⟨0, by omega⟩).val)
    (r1 : ∀ (i : (⟨2, ![n, m]⟩ : Shape).Idx) (q : D.contr.Idx), (D.rhsIdx i q 1).val = (i 1).val)
    (prec : Option ContractPrecision) (h : FVec Ideal (⟨2, ![n, K]⟩ : Shape) φ₁) (w : FVec Ideal (⟨2, ![K, m]⟩ : Shape) φ₂)
    (b : FVec Ideal (⟨2, ![1, m]⟩ : Shape) .f32) (hbr : (⟨2, ![1, m]⟩ : Shape).Broadcasts ⟨2, ![n, m]⟩)
    (p : Fin n) (c : Fin m) (hrow : Fin K → EReal) (hh : ∀ k, h (ix2 p k) = hrow k) :
    addf (FloatOps.matmul D prec h w (constant (⟨2, ![n, m]⟩ : Shape) .f32 0x00000000#32))
        (broadcastTo (⟨2, ![n, m]⟩ : Shape) b hbr) (ix2 p c)
      = (∑ k : Fin K, hrow k * w (ix2 k c)) + b (ix2 (0 : Fin 1) c) := by
  rw [addf_apply, PlainDot.matmul_zero_apply D hr hs l0 l1 r0 r1 prec h w p c, broadcastTo_1b_ab_apply b hbr p c,
    Finset.sum_congr rfl fun k _ => by rw [hh k]]

/-- The row means of `Z` as a column, as the vector unit spells them. -/
abbrev vMean (Z : FVec Ideal (⟨2, ![n, m]⟩ : Shape) .f32) (acc : BitVec (FTy.f32).bits)
    (hred : (⟨2, ![n, m]⟩ : Shape).Reduces [1] ⟨1, ![n]⟩) (hφ : FKind.Formats .f32) (hacc : acc = FKind.add.neutral .f32 hφ)
    (hsc : (⟨1, ![n]⟩ : Shape).ShapeCasts ⟨2, ![n, 1]⟩) (wd : BitVec (FTy.f32).bits) : FVec Ideal (⟨2, ![n, 1]⟩ : Shape) .f32 :=
  divf (shapeCast (⟨2, ![n, 1]⟩ : Shape) (multiReduction .add [1] (⟨1, ![n]⟩ : Shape) Z acc hred hφ hacc) hsc)
    (broadcast (⟨2, ![n, 1]⟩ : Shape) (Scalar.ofBits (F := Ideal) .f32 wd))

/-- `Z` less its row means spread over the columns. -/
abbrev vCentred (Z : FVec Ideal (⟨2, ![n, m]⟩ : Shape) .f32) (acc : BitVec (FTy.f32).bits)
    (hred : (⟨2, ![n, m]⟩ : Shape).Reduces [1] ⟨1, ![n]⟩) (hφ : FKind.Formats .f32) (hacc : acc = FKind.add.neutral .f32 hφ)
    (hsc : (⟨1, ![n]⟩ : Shape).ShapeCasts ⟨2, ![n, 1]⟩) (wd : BitVec (FTy.f32).bits)
    (hb : (⟨2, ![n, 1]⟩ : Shape).Broadcasts ⟨2, ![n, m]⟩) : FVec Ideal (⟨2, ![n, m]⟩ : Shape) .f32 :=
  subf Z (broadcastTo (⟨2, ![n, m]⟩ : Shape) (vMean Z acc hred hφ hacc hsc wd) hb)

/-- The normalised array: centred · spread (rsqrt (row means of the squared centred + ε)). -/
abbrev vNormed (Z : FVec Ideal (⟨2, ![n, m]⟩ : Shape) .f32) (acc : BitVec (FTy.f32).bits)
    (hred : (⟨2, ![n, m]⟩ : Shape).Reduces [1] ⟨1, ![n]⟩) (hφ : FKind.Formats .f32) (hacc : acc = FKind.add.neutral .f32 hφ)
    (hsc : (⟨1, ![n]⟩ : Shape).ShapeCasts ⟨2, ![n, 1]⟩) (wd wε : BitVec (FTy.f32).bits)
    (hb : (⟨2, ![n, 1]⟩ : Shape).Broadcasts ⟨2, ![n, m]⟩) : FVec Ideal (⟨2, ![n, m]⟩ : Shape) .f32 :=
  mulf (vCentred Z acc hred hφ hacc hsc wd hb)
    (broadcastTo (⟨2, ![n, m]⟩ : Shape)
      (rsqrt (addf (vMean (mulf (vCentred Z acc hred hφ hacc hsc wd hb) (vCentred Z acc hred hφ hacc hsc wd hb)) acc hred hφ hacc hsc wd)
        (broadcast (⟨2, ![n, 1]⟩ : Shape) (Scalar.ofBits (F := Ideal) .f32 wε)))) hb)

/-- The centred array at (p, c) is the row's deviation. -/
theorem vCentred_apply (Z : FVec Ideal (⟨2, ![n, m]⟩ : Shape) .f32) (acc : BitVec (FTy.f32).bits)
    (hred : (⟨2, ![n, m]⟩ : Shape).Reduces [1] ⟨1, ![n]⟩) (hφ : FKind.Formats .f32) (hacc : acc = FKind.add.neutral .f32 hφ)
    (hsc : (⟨1, ![n]⟩ : Shape).ShapeCasts ⟨2, ![n, 1]⟩) (wd : BitVec (FTy.f32).bits)
    (hb : (⟨2, ![n, 1]⟩ : Shape).Broadcasts ⟨2, ![n, m]⟩) (p : Fin n) (c : Fin m)
    (zr : Fin m → EReal) (hz : ∀ k, Z (ix2 p k) = zr k) :
    vCentred Z acc hred hφ hacc hsc wd hb (ix2 p c) = dev (Ideal.ofBits .f32 wd) zr c := by
  unfold dev
  have h1 : vCentred Z acc hred hφ hacc hsc wd hb (ix2 p c)
      = Z (ix2 p c) - vMean Z acc hred hφ hacc hsc wd (ix2 p (0 : Fin 1)) :=
    congrArg (Z (ix2 p c) - ·) (LibColumns.broadcastTo_a1_ab_apply _ hb p c)
  rw [h1, hz c]
  exact congrArg (zr c - ·) (vecMean_apply Z acc hred hφ hacc hsc wd p 0 zr hz)

/-- The normalised array at (p, c) is the row's normalised entry. -/
theorem vNormed_apply (Z : FVec Ideal (⟨2, ![n, m]⟩ : Shape) .f32) (acc : BitVec (FTy.f32).bits)
    (hred : (⟨2, ![n, m]⟩ : Shape).Reduces [1] ⟨1, ![n]⟩) (hφ : FKind.Formats .f32) (hacc : acc = FKind.add.neutral .f32 hφ)
    (hsc : (⟨1, ![n]⟩ : Shape).ShapeCasts ⟨2, ![n, 1]⟩) (wd wε : BitVec (FTy.f32).bits)
    (hb : (⟨2, ![n, 1]⟩ : Shape).Broadcasts ⟨2, ![n, m]⟩) (p : Fin n) (c : Fin m)
    (zr : Fin m → EReal) (hz : ∀ k, Z (ix2 p k) = zr k) :
    vNormed Z acc hred hφ hacc hsc wd wε hb (ix2 p c) = normed (Ideal.ofBits .f32 wd) (Ideal.ofBits .f32 wε) zr c :=
  vecNormed_apply Z _ _ wε hb p c _ _ _ (hz c)
    ((LibColumns.broadcastTo_a1_ab_apply _ hb p c).trans (vecMean_apply Z acc hred hφ hacc hsc wd p 0 zr hz))
    (vecMean_apply _ acc hred hφ hacc hsc wd p 0 _ fun k => by
      rw [mulf_apply, vCentred_apply Z acc hred hφ hacc hsc wd hb p k zr hz])

/-- tanh (normalised · spread g + spread β) at (p, c) is the row's layer output. -/
theorem vNormTanh_apply (Z : FVec Ideal (⟨2, ![n, m]⟩ : Shape) .f32) (acc : BitVec (FTy.f32).bits)
    (hred : (⟨2, ![n, m]⟩ : Shape).Reduces [1] ⟨1, ![n]⟩) (hφ : FKind.Formats .f32) (hacc : acc = FKind.add.neutral .f32 hφ)
    (hsc : (⟨1, ![n]⟩ : Shape).ShapeCasts ⟨2, ![n, 1]⟩) (wd wε : BitVec (FTy.f32).bits)
    (hb : (⟨2, ![n, 1]⟩ : Shape).Broadcasts ⟨2, ![n, m]⟩) (g β : FVec Ideal (⟨2, ![1, m]⟩ : Shape) .f32)
    (hbr : (⟨2, ![1, m]⟩ : Shape).Broadcasts ⟨2, ![n, m]⟩) (p : Fin n) (c : Fin m)
    (zr gr βr : Fin m → EReal) (hz : ∀ k, Z (ix2 p k) = zr k) (hg : ∀ k, g (ix2 (0 : Fin 1) k) = gr k)
    (hβ : ∀ k, β (ix2 (0 : Fin 1) k) = βr k) :
    tanh (addf (mulf (vNormed Z acc hred hφ hacc hsc wd wε hb) (broadcastTo (⟨2, ![n, m]⟩ : Shape) g hbr))
        (broadcastTo (⟨2, ![n, m]⟩ : Shape) β hbr)) (ix2 p c)
      = normTanh (Ideal.ofBits .f32 wd) (Ideal.ofBits .f32 wε) zr gr βr c :=
  vecScaleShiftTanh_apply _ g β hbr p c _ _ _ (vNormed_apply Z acc hred hφ hacc hsc wd wε hb p c zr hz) (hg c) (hβ c)

end Vector

/-! ## The host's spelling -/

section Host

variable {n m : ℕ}

/-- The host's row sum from a zero start, spread as a column and divided by a spread constant, is the row's mean. -/
theorem hostMean_apply (z : FVec Ideal (⟨2, ![n, m]⟩ : Shape) .f32)
    (hto : (⟨2, ![n, m]⟩ : Shape).ReducesTo [1] ⟨1, ![n]⟩) (hred : (⟨2, ![n, m]⟩ : Shape).Reduces [1] ⟨1, ![n]⟩)
    (hu : 0 < (⟨0, ![]⟩ : Shape).numel)
    (hcol : (⟨1, ![n]⟩ : Shape).BroadcastsInDim (⟨2, ![n, 1]⟩ : Shape) (![0] : Fin 1 → Fin 2))
    (hs0 : (⟨0, ![]⟩ : Shape).BroadcastsInDim (⟨2, ![n, 1]⟩ : Shape) (![] : Fin 0 → Fin 2)) (wd : BitVec (FTy.f32).bits)
    (p : Fin n) (q : Fin 1) (zr : Fin m → EReal) (hz : ∀ k, z (ix2 p k) = zr k) :
    Host.divf (broadcastInDim (⟨2, ![n, 1]⟩ : Shape) ![0] hcol
          (Host.reduceAdd z (constant (F := Ideal) (⟨0, ![]⟩ : Shape) .f32 0x00000000#32) hto hu))
        (broadcastInDim (⟨2, ![n, 1]⟩ : Shape) ![] hs0 (constant (F := Ideal) (⟨0, ![]⟩ : Shape) .f32 wd)) (ix2 p q)
      = mean (Ideal.ofBits .f32 wd) zr := by
  unfold mean
  rw [hostDivf_apply, bcastCol_apply _ hcol p q, broadcastInDim_scalar_apply hs0, hostReduceAdd_apply,
    Ideal.hostReduceAdd_single hto hred z _ (ix1 p)]
  have hsum : (∑ k : Fin ((⟨2, ![n, m]⟩ : Shape).size 1), z (hred.lift (ix1 p) k)) = ∑ k : Fin m, zr k := by
    refine Finset.sum_congr rfl fun k _ => ?_
    rw [← hz k]
    refine congrArg z (funext fun a => Fin.ext ?_)
    match a with
    | ⟨0, _⟩ => rfl
    | ⟨1, _⟩ => rfl
  rw [hsum]
  show Ideal.div (Ideal.ofBits .f32 0x00000000#32 + _) (Ideal.ofBits .f32 wd) = _
  rw [Ideal.ofBits_zero_f32, zero_add]

/-- (Z − M) · spread (rsqrt (V + spread ε)) at (p, c), from the three operands at row p. -/
theorem hostNormed_apply (Z M : FVec Ideal (⟨2, ![n, m]⟩ : Shape) .f32) (V : FVec Ideal (⟨2, ![n, 1]⟩ : Shape) .f32)
    (wε : BitVec (FTy.f32).bits)
    (hs0 : (⟨0, ![]⟩ : Shape).BroadcastsInDim (⟨2, ![n, 1]⟩ : Shape) (![] : Fin 0 → Fin 2))
    (hb : (⟨2, ![n, 1]⟩ : Shape).BroadcastsInDim (⟨2, ![n, m]⟩ : Shape) (![0, 1] : Fin 2 → Fin 2)) (p : Fin n) (c : Fin m)
    (zc mu v : EReal) (hZ : Z (ix2 p c) = zc) (hM : M (ix2 p c) = mu) (hV : V (ix2 p (0 : Fin 1)) = v) :
    mulf (subf Z M) (broadcastInDim (⟨2, ![n, m]⟩ : Shape) ![0, 1] hb
        (Host.rsqrt (addf V (broadcastInDim (⟨2, ![n, 1]⟩ : Shape) ![] hs0
          (constant (F := Ideal) (⟨0, ![]⟩ : Shape) .f32 wε))))) (ix2 p c)
      = (zc - mu) * Ideal.rsqrt (v + Ideal.ofBits .f32 wε) := by
  rw [mulf_apply, subf_apply, bcastCols_apply _ hb p c, hZ, hM]
  show _ * Ideal.rsqrt (V (ix2 p (0 : Fin 1)) + broadcastInDim (⟨2, ![n, 1]⟩ : Shape) ![] hs0
      (constant (F := Ideal) (⟨0, ![]⟩ : Shape) .f32 wε) (ix2 p (0 : Fin 1))) = _
  rw [hV, broadcastInDim_scalar_apply hs0]
  rfl

/-- tanh (N · spread g + spread β) at (p, c), with g and β vectors spread first to a row and then over the rows. -/
theorem hostScaleShiftTanh_apply (N : FVec Ideal (⟨2, ![n, m]⟩ : Shape) .f32) (g β : FVec Ideal (⟨1, ![m]⟩ : Shape) .f32)
    (hb1 : (⟨1, ![m]⟩ : Shape).BroadcastsInDim (⟨2, ![1, m]⟩ : Shape) (![1] : Fin 1 → Fin 2))
    (hb2 : (⟨2, ![1, m]⟩ : Shape).BroadcastsInDim (⟨2, ![n, m]⟩ : Shape) (![0, 1] : Fin 2 → Fin 2)) (p : Fin n) (c : Fin m)
    (x gc βc : EReal) (hN : N (ix2 p c) = x) (hg : g (ix1 c) = gc) (hβ : β (ix1 c) = βc) :
    Host.tanh (addf (mulf N (broadcastInDim (⟨2, ![n, m]⟩ : Shape) ![0, 1] hb2 (broadcastInDim (⟨2, ![1, m]⟩ : Shape) ![1] hb1 g)))
        (broadcastInDim (⟨2, ![n, m]⟩ : Shape) ![0, 1] hb2 (broadcastInDim (⟨2, ![1, m]⟩ : Shape) ![1] hb1 β))) (ix2 p c)
      = Ideal.tanh (x * gc + βc) := by
  show Ideal.tanh (N (ix2 p c)
      * broadcastInDim (⟨2, ![n, m]⟩ : Shape) ![0, 1] hb2 (broadcastInDim (⟨2, ![1, m]⟩ : Shape) ![1] hb1 g) (ix2 p c)
      + broadcastInDim (⟨2, ![n, m]⟩ : Shape) ![0, 1] hb2 (broadcastInDim (⟨2, ![1, m]⟩ : Shape) ![1] hb1 β) (ix2 p c)) = _
  rw [bcastRow_apply g hb1 hb2 p c, bcastRow_apply β hb1 hb2 p c, hN, hg, hβ]

/-- The host's `dot_general` plus a bias vector spread over the rows, at (p, c), from row p of the left operand. -/
theorem hostDense_apply {K : ℕ} {φ₁ φ₂ : FTy}
    (D : DotDims (⟨2, ![n, K]⟩ : Shape) (⟨2, ![K, m]⟩ : Shape) (⟨2, ![n, m]⟩ : Shape))
    (hr : D.contr.rank = 1) (hs : D.contr.size ⟨0, by omega⟩ = K)
    (l0 : ∀ (i : (⟨2, ![n, m]⟩ : Shape).Idx) (q : D.contr.Idx), (D.lhsIdx i q 0).val = (i 0).val)
    (l1 : ∀ (i : (⟨2, ![n, m]⟩ : Shape).Idx) (q : D.contr.Idx), (D.lhsIdx i q 1).val = (q ⟨0, by omega⟩).val)
    (r0 : ∀ (i : (⟨2, ![n, m]⟩ : Shape).Idx) (q : D.contr.Idx), (D.rhsIdx i q 0).val = (q ⟨0, by omega⟩).val)
    (r1 : ∀ (i : (⟨2, ![n, m]⟩ : Shape).Idx) (q : D.contr.Idx), (D.rhsIdx i q 1).val = (i 1).val)
    (prec : Option ContractPrecision) (h : FVec Ideal (⟨2, ![n, K]⟩ : Shape) φ₁) (w : FVec Ideal (⟨2, ![K, m]⟩ : Shape) φ₂)
    (b : FVec Ideal (⟨1, ![m]⟩ : Shape) .f32)
    (hb1 : (⟨1, ![m]⟩ : Shape).BroadcastsInDim (⟨2, ![1, m]⟩ : Shape) (![1] : Fin 1 → Fin 2))
    (hb2 : (⟨2, ![1, m]⟩ : Shape).BroadcastsInDim (⟨2, ![n, m]⟩ : Shape) (![0, 1] : Fin 2 → Fin 2))
    (p : Fin n) (c : Fin m) (hrow : Fin K → EReal) (hh : ∀ k, h (ix2 p k) = hrow k) :
    (addf (Host.dotGeneral D prec h w)
        (broadcastInDim (⟨2, ![n, m]⟩ : Shape) ![0, 1] hb2 (broadcastInDim (⟨2, ![1, m]⟩ : Shape) ![1] hb1 b)) :
        FVec Ideal (⟨2, ![n, m]⟩ : Shape) .f32) (ix2 p c)
      = (∑ k : Fin K, hrow k * w (ix2 k c)) + b (ix1 c) := by
  rw [addf_apply, bcastRow_apply b hb1 hb2 p c]
  have hdot : Host.dotGeneral D prec h w (ix2 p c) = ∑ k : Fin K, (h (ix2 p k) : EReal) * (w (ix2 k c) : EReal) := by
    simp only [Host.dotGeneral]
    exact PlainDot.dotGeneral_apply D hr hs l0 l1 r0 r1 prec _ h w p c
  rw [hdot, Finset.sum_congr rfl fun k _ => by rw [hh k]]

end Host

end Cert.NormLayer

end
-- ==== Proof.NodeMlp.lean ====
/-
  The node network of a message-passing layer, for ONE node, over the extended reals.

  A node arrives with three rows of 128 numbers: the messages summed over its incoming edges (mi), over its outgoing
  edges (mo), and its own features (x).  The first layer multiplies the three rows by three 128 × 128 blocks of one
  384 × 128 weight matrix and adds the three products and a bias; each of the three further layers is a 128 × 128
  product plus a bias.  After every layer the row is normalised (mean and variance over its 128 entries, divisor 128,
  ε the 32-bit word 0x3727C5AC), scaled by g, shifted by β and passed through tanh.
-/
import proofs.«101905_j14233521619351_2_alg».proof.Proof.LibNormLayer

noncomputable section

open scoped BigOperators

namespace Cert.NodeMlp

open Idealize.ShloMosaic Idealize.ShloMosaic.ValueIdx Cert.NormLayer

/-- The divisor of the means: the 32-bit word of 128.0. -/
abbrev d128 : EReal := Ideal.ofBits .f32 0x43000000#32

/-- The ε under the square root. -/
abbrev eps : EReal := Ideal.ofBits .f32 0x3727C5AC#32

/-- The first layer before normalisation: mi · wa + mo · wb + x · wc + b, the three products added left to right. -/
def first (mi mo x : Fin 128 → EReal) (wa wb wc : Fin 128 → Fin 128 → EReal) (b : Fin 128 → EReal) (c : Fin 128) : EReal :=
  (((∑ k : Fin 128, mi k * wa k c) + ∑ k : Fin 128, mo k * wb k c) + ∑ k : Fin 128, x k * wc k c) + b c

/-- Normalise a row, scale, shift, tanh. -/
def act (z g β : Fin 128 → EReal) : Fin 128 → EReal := normTanh d128 eps z g β

/-- Hidden layer `j`: a 128 × 128 product plus a bias, then `act`. -/
def hidden (h : Fin 128 → EReal) (W : Fin 3 → Fin 128 → Fin 128 → EReal) (b g β : Fin 3 → Fin 128 → EReal) (j : Fin 3) :
    Fin 128 → EReal :=
  act (dense h (W j) (b j)) (g j) (β j)

/-- The whole network on one node. -/
def net (mi mo x : Fin 128 → EReal) (wa wb wc : Fin 128 → Fin 128 → EReal) (b0 g0 β0 : Fin 128 → EReal)
    (W : Fin 3 → Fin 128 → Fin 128 → EReal) (b g β : Fin 3 → Fin 128 → EReal) : Fin 128 → EReal :=
  hidden (hidden (hidden (act (first mi mo x wa wb wc b0) g0 β0) W b g β 0) W b g β 1) W b g β 2

end Cert.NodeMlp

end
-- ==== Proof.NodeArray.lean ====
/-
  The node network applied to every node: the output array as one function of the argument arrays.

  Row P of the output is the network of `NodeMlp` on row P of the summed incoming messages, of the summed outgoing
  messages and of the features.  The first layer's three 128 × 128 blocks are rows 0 … 127, 128 … 255 and 256 … 383 of
  the 384 × 128 weight matrix; layer j of the three further layers takes slab j of the weight stack and row j of the
  stacked biases, scales and shifts.
-/
import proofs.«101905_j14233521619351_2_alg».proof.Proof.NodeMlp

noncomputable section

namespace Cert.NodeMlp

open Idealize.ShloMosaic Idealize.ShloMosaic.ValueIdx

/-- The whole output array. -/
def G (MI MO X : (⟨2, ![100000, 128]⟩ : Shape).Idx → EReal) (W0 : (⟨2, ![384, 128]⟩ : Shape).Idx → EReal)
    (b0 g0 β0 : (⟨1, ![128]⟩ : Shape).Idx → EReal) (W : (⟨3, ![3, 128, 128]⟩ : Shape).Idx → EReal)
    (b g β : (⟨2, ![3, 128]⟩ : Shape).Idx → EReal) : (⟨2, ![100000, 128]⟩ : Shape).Idx → EReal := fun i =>
  net (fun k => MI (ix2 (i 0) k)) (fun k => MO (ix2 (i 0) k)) (fun k => X (ix2 (i 0) k))
    (fun k q => W0 (ix2 (⟨k.val, by omega⟩ : Fin 384) q)) (fun k q => W0 (ix2 (⟨128 + k.val, by omega⟩ : Fin 384) q))
    (fun k q => W0 (ix2 (⟨256 + k.val, by omega⟩ : Fin 384) q))
    (fun q => b0 (ix1 q)) (fun q => g0 (ix1 q)) (fun q => β0 (ix1 q))
    (fun j k q => W (ix3 j k q)) (fun j q => b (ix2 j q)) (fun j q => g (ix2 j q)) (fun j q => β (ix2 j q)) (i 1)

/-- The array at explicit coordinates. -/
theorem G_apply (MI MO X : (⟨2, ![100000, 128]⟩ : Shape).Idx → EReal) (W0 : (⟨2, ![384, 128]⟩ : Shape).Idx → EReal)
    (b0 g0 β0 : (⟨1, ![128]⟩ : Shape).Idx → EReal) (W : (⟨3, ![3, 128, 128]⟩ : Shape).Idx → EReal)
    (b g β : (⟨2, ![3, 128]⟩ : Shape).Idx → EReal) (P : Fin 100000) (c : Fin 128) :
    G MI MO X W0 b0 g0 β0 W b g β (ix2 P c)
      = net (fun k => MI (ix2 P k)) (fun k => MO (ix2 P k)) (fun k => X (ix2 P k))
          (fun k q => W0 (ix2 (⟨k.val, by omega⟩ : Fin 384) q)) (fun k q => W0 (ix2 (⟨128 + k.val, by omega⟩ : Fin 384) q))
          (fun k q => W0 (ix2 (⟨256 + k.val, by omega⟩ : Fin 384) q))
          (fun q => b0 (ix1 q)) (fun q => g0 (ix1 q)) (fun q => β0 (ix1 q))
          (fun j k q => W (ix3 j k q)) (fun j q => b (ix2 j q)) (fun j q => g (ix2 j q)) (fun j q => β (ix2 j q)) c := rfl

end Cert.NodeMlp

end
-- ==== Proof.KernelWindows.lean ====
/-
  The kernel's windows: which rows of which array each grid point stages.

  The grid has 25 points.  At point t the three row-blocked input windows and the output window sit at rows
  4000·t … 4000·t + 3999 of their arrays, and every parameter window holds its whole array.  Each fact is first proved
  for an ARBITRARY array under the window — it is index arithmetic only — and then applied to what the program's
  arrays hold when the kernel starts.
-/
import proofs.«101905_j14233521619351_2_alg».proof.Proof.Gen.KernelIdeal.Value
import proofs.«101905_j14233521619351_2_alg».proof.Proof.KernelEntry
import proofs.«101905_j14233521619351_2_alg».proof.Proof.NodeArray

noncomputable section

namespace Cert.KernelIdeal.Blocks

open Idealize.ShloMosaic Idealize.ShloMosaic.ValueIdx Idealize.ShloMosaic.TcCoe Idealize.SL.Sem
open Cert.KernelIdeal Cert.KernelIdeal.Gen Cert.NodeMlp
open Idealize.ShloMosaic.Pipeline (Dat)

variable (m : (ℓ : Loc nD τ sig) → Buf (Elt Ideal) ℓ) (ρ : Dev nD → PrngReg)

/-- The messages summed over incoming edges, of the launch memory. -/
abbrev MI (c : Dev nD) : S100000x128.Idx → EReal :=
  Agg.msgSum (m ((c : Thread nD τ).loc main_arg0)) (m ((c : Thread nD τ).loc main_arg1))
    (Agg.starts (m ((c : Thread nD τ).loc main_arg2))) (Agg.ends (m ((c : Thread nD τ).loc main_arg2)))

/-- The messages summed over outgoing edges, of the launch memory. -/
abbrev MO (c : Dev nD) : S100000x128.Idx → EReal :=
  Agg.msgSum (m ((c : Thread nD τ).loc main_arg0)) (m ((c : Thread nD τ).loc main_arg1))
    (Agg.ends (m ((c : Thread nD τ).loc main_arg2))) (Agg.starts (m ((c : Thread nD τ).loc main_arg2)))

/-! ## The printed index maps, decided over the 25 points -/

/-- The row-blocked windows sit at block (t, 0). -/
theorem idxRows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- The parameter windows sit at block 0 on every axis. -/
theorem idxParams : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 3) = 0 ∧ win0_9.index t (1 : Fin 3) = 0 ∧ win0_9.index t (2 : Fin 3) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

theorem lt25 (t : Fin cfg0.N) : t.val < 25 := lt_of_lt_of_eq t.isLt N_0

/-- Row p of point t's block is row 4000·t + p of the array. -/
def row (t : Fin cfg0.N) (p : Fin 4000) : Fin 100000 := ⟨4000 * t.val + p.val, by have := lt25 t; omega⟩

/-! ## A window's block of an arbitrary array, read at an entry -/

theorem read0 (c : Dev nD) (A : Buf (Elt Ideal) ((c : Thread nD τ).loc (Pipeline.arrRef spec0 0))) (t : Fin cfg0.N)
    (p : Fin 4000) (k : Fin 128) :
    ((cfg0.win 0).blk t).view.read (Elt Ideal) A (ix2 p k) = A (ix2 (row t p) k) := by
  show A (((cfg0.win 0).blk t).view.emb (ix2 p k)) = A (ix2 (row t p) k)
  refine congrArg A (funext fun a => Fin.ext ?_)
  obtain ⟨e0, e1, -⟩ := idxRows t
  match a with
  | ⟨0, _⟩ => show win0_0.index t (0 : Fin 2) * 4000 + 1 * p.val = 4000 * t.val + p.val; omega
  | ⟨1, _⟩ => show win0_0.index t (1 : Fin 2) * 128 + 1 * k.val = k.val; omega

theorem read1 (c : Dev nD) (A : Buf (Elt Ideal) ((c : Thread nD τ).loc (Pipeline.arrRef spec0 1))) (t : Fin cfg0.N)
    (p : Fin 4000) (k : Fin 128) :
    ((cfg0.win 1).blk t).view.read (Elt Ideal) A (ix2 p k) = A (ix2 (row t p) k) := by
  show A (((cfg0.win 1).blk t).view.emb (ix2 p k)) = A (ix2 (row t p) k)
  refine congrArg A (funext fun a => Fin.ext ?_)
  obtain ⟨-, -, e0, e1, -⟩ := idxRows t
  match a with
  | ⟨0, _⟩ => show win0_1.index t (0 : Fin 2) * 4000 + 1 * p.val = 4000 * t.val + p.val; omega
  | ⟨1, _⟩ => show win0_1.index t (1 : Fin 2) * 128 + 1 * k.val = k.val; omega

theorem read2 (c : Dev nD) (A : Buf (Elt Ideal) ((c : Thread nD τ).loc (Pipeline.arrRef spec0 2))) (t : Fin cfg0.N)
    (p : Fin 4000) (k : Fin 128) :
    ((cfg0.win 2).blk t).view.read (Elt Ideal) A (ix2 p k) = A (ix2 (row t p) k) := by
  show A (((cfg0.win 2).blk t).view.emb (ix2 p k)) = A (ix2 (row t p) k)
  refine congrArg A (funext fun a => Fin.ext ?_)
  obtain ⟨-, -, -, -, e0, e1, -⟩ := idxRows t
  match a with
  | ⟨0, _⟩ => show win0_2.index t (0 : Fin 2) * 4000 + 1 * p.val = 4000 * t.val + p.val; omega
  | ⟨1, _⟩ => show win0_2.index t (1 : Fin 2) * 128 + 1 * k.val = k.val; omega

theorem read13 (c : Dev nD) (A : Buf (Elt Ideal) ((c : Thread nD τ).loc (Pipeline.arrRef spec0 13))) (t : Fin cfg0.N)
    (p : Fin 4000) (k : Fin 128) :
    ((cfg0.win 13).blk t).view.read (Elt Ideal) A (ix2 p k) = A (ix2 (row t p) k) := by
  show A (((cfg0.win 13).blk t).view.emb (ix2 p k)) = A (ix2 (row t p) k)
  refine congrArg A (funext fun a => Fin.ext ?_)
  obtain ⟨-, -, -, -, -, -, e0, e1⟩ := idxRows t
  match a with
  | ⟨0, _⟩ => show win0_13.index t (0 : Fin 2) * 4000 + 1 * p.val = 4000 * t.val + p.val; omega
  | ⟨1, _⟩ => show win0_13.index t (1 : Fin 2) * 128 + 1 * k.val = k.val; omega

theorem read3 (c : Dev nD) (A : Buf (Elt Ideal) ((c : Thread nD τ).loc (Pipeline.arrRef spec0 3))) (t : Fin cfg0.N)
    (k q : Fin 128) :
    ((cfg0.win 3).blk t).view.read (Elt Ideal) A (ix2 k q) = A (ix2 k q) := by
  show A (((cfg0.win 3).blk t).view.emb (ix2 k q)) = A (ix2 k q)
  refine congrArg A (funext fun a => Fin.ext ?_)
  obtain ⟨e0, e1, -⟩ := idxParams t
  match a with
  | ⟨0, _⟩ => show win0_3.index t (0 : Fin 2) * 128 + 1 * k.val = k.val; omega
  | ⟨1, _⟩ => show win0_3.index t (1 : Fin 2) * 128 + 1 * q.val = q.val; omega

theorem read4 (c : Dev nD) (A : Buf (Elt Ideal) ((c : Thread nD τ).loc (Pipeline.arrRef spec0 4))) (t : Fin cfg0.N)
    (k q : Fin 128) :
    ((cfg0.win 4).blk t).view.read (Elt Ideal) A (ix2 k q) = A (ix2 k q) := by
  show A (((cfg0.win 4).blk t).view.emb (ix2 k q)) = A (ix2 k q)
  refine congrArg A (funext fun a => Fin.ext ?_)
  obtain ⟨-, -, e0, e1, -⟩ := idxParams t
  match a with
  | ⟨0, _⟩ => show win0_4.index t (0 : Fin 2) * 128 + 1 * k.val = k.val; omega
  | ⟨1, _⟩ => show win0_4.index t (1 : Fin 2) * 128 + 1 * q.val = q.val; omega

theorem read5 (c : Dev nD) (A : Buf (Elt Ideal) ((c : Thread nD τ).loc (Pipeline.arrRef spec0 5))) (t : Fin cfg0.N)
    (k q : Fin 128) :
    ((cfg0.win 5).blk t).view.read (Elt Ideal) A (ix2 k q) = A (ix2 k q) := by
  show A (((cfg0.win 5).blk t).view.emb (ix2 k q)) = A (ix2 k q)
  refine congrArg A (funext fun a => Fin.ext ?_)
  obtain ⟨-, -, -, -, e0, e1, -⟩ := idxParams t
  match a with
  | ⟨0, _⟩ => show win0_5.index t (0 : Fin 2) * 128 + 1 * k.val = k.val; omega
  | ⟨1, _⟩ => show win0_5.index t (1 : Fin 2) * 128 + 1 * q.val = q.val; omega

theorem read6 (c : Dev nD) (A : Buf (Elt Ideal) ((c : Thread nD τ).loc (Pipeline.arrRef spec0 6))) (t : Fin cfg0.N)
    (q : Fin 128) :
    ((cfg0.win 6).blk t).view.read (Elt Ideal) A (ix1 q) = A (ix1 q) := by
  show A (((cfg0.win 6).blk t).view.emb (ix1 q)) = A (ix1 q)
  refine congrArg A (funext fun a => Fin.ext ?_)
  obtain ⟨-, -, -, -, -, -, e0, -⟩ := idxParams t
  match a with
  | ⟨0, _⟩ => show win0_6.index t (0 : Fin 1) * 128 + 1 * q.val = q.val; omega

theorem read7 (c : Dev nD) (A : Buf (Elt Ideal) ((c : Thread nD τ).loc (Pipeline.arrRef spec0 7))) (t : Fin cfg0.N)
    (q : Fin 128) :
    ((cfg0.win 7).blk t).view.read (Elt Ideal) A (ix1 q) = A (ix1 q) := by
  show A (((cfg0.win 7).blk t).view.emb (ix1 q)) = A (ix1 q)
  refine congrArg A (funext fun a => Fin.ext ?_)
  obtain ⟨-, -, -, -, -, -, -, e0, -⟩ := idxParams t
  match a with
  | ⟨0, _⟩ => show win0_7.index t (0 : Fin 1) * 128 + 1 * q.val = q.val; omega

theorem read8 (c : Dev nD) (A : Buf (Elt Ideal) ((c : Thread nD τ).loc (Pipeline.arrRef spec0 8))) (t : Fin cfg0.N)
    (q : Fin 128) :
    ((cfg0.win 8).blk t).view.read (Elt Ideal) A (ix1 q) = A (ix1 q) := by
  show A (((cfg0.win 8).blk t).view.emb (ix1 q)) = A (ix1 q)
  refine congrArg A (funext fun a => Fin.ext ?_)
  obtain ⟨-, -, -, -, -, -, -, -, e0, -⟩ := idxParams t
  match a with
  | ⟨0, _⟩ => show win0_8.index t (0 : Fin 1) * 128 + 1 * q.val = q.val; omega

theorem read9 (c : Dev nD) (A : Buf (Elt Ideal) ((c : Thread nD τ).loc (Pipeline.arrRef spec0 9))) (t : Fin cfg0.N)
    (j : Fin 3) (k q : Fin 128) :
    ((cfg0.win 9).blk t).view.read (Elt Ideal) A (ix3 j k q) = A (ix3 j k q) := by
  show A (((cfg0.win 9).blk t).view.emb (ix3 j k q)) = A (ix3 j k q)
  refine congrArg A (funext fun a => Fin.ext ?_)
  obtain ⟨-, -, -, -, -, -, -, -, -, e0, e1, e2, -⟩ := idxParams t
  match a with
  | ⟨0, _⟩ => show win0_9.index t (0 : Fin 3) * 3 + 1 * j.val = j.val; omega
  | ⟨1, _⟩ => show win0_9.index t (1 : Fin 3) * 128 + 1 * k.val = k.val; omega
  | ⟨2, _⟩ => show win0_9.index t (2 : Fin 3) * 128 + 1 * q.val = q.val; omega

theorem read10 (c : Dev nD) (A : Buf (Elt Ideal) ((c : Thread nD τ).loc (Pipeline.arrRef spec0 10))) (t : Fin cfg0.N)
    (j : Fin 3) (q : Fin 128) :
    ((cfg0.win 10).blk t).view.read (Elt Ideal) A (ix2 j q) = A (ix2 j q) := by
  show A (((cfg0.win 10).blk t).view.emb (ix2 j q)) = A (ix2 j q)
  refine congrArg A (funext fun a => Fin.ext ?_)
  obtain ⟨-, -, -, -, -, -, -, -, -, -, -, -, e0, e1, -⟩ := idxParams t
  match a with
  | ⟨0, _⟩ => show win0_10.index t (0 : Fin 2) * 3 + 1 * j.val = j.val; omega
  | ⟨1, _⟩ => show win0_10.index t (1 : Fin 2) * 128 + 1 * q.val = q.val; omega

theorem read11 (c : Dev nD) (A : Buf (Elt Ideal) ((c : Thread nD τ).loc (Pipeline.arrRef spec0 11))) (t : Fin cfg0.N)
    (j : Fin 3) (q : Fin 128) :
    ((cfg0.win 11).blk t).view.read (Elt Ideal) A (ix2 j q) = A (ix2 j q) := by
  show A (((cfg0.win 11).blk t).view.emb (ix2 j q)) = A (ix2 j q)
  refine congrArg A (funext fun a => Fin.ext ?_)
  obtain ⟨-, -, -, -, -, -, -, -, -, -, -, -, -, -, e0, e1, -⟩ := idxParams t
  match a with
  | ⟨0, _⟩ => show win0_11.index t (0 : Fin 2) * 3 + 1 * j.val = j.val; omega
  | ⟨1, _⟩ => show win0_11.index t (1 : Fin 2) * 128 + 1 * q.val = q.val; omega

theorem read12 (c : Dev nD) (A : Buf (Elt Ideal) ((c : Thread nD τ).loc (Pipeline.arrRef spec0 12))) (t : Fin cfg0.N)
    (j : Fin 3) (q : Fin 128) :
    ((cfg0.win 12).blk t).view.read (Elt Ideal) A (ix2 j q) = A (ix2 j q) := by
  show A (((cfg0.win 12).blk t).view.emb (ix2 j q)) = A (ix2 j q)
  refine congrArg A (funext fun a => Fin.ext ?_)
  obtain ⟨-, -, -, -, -, -, -, -, -, -, -, -, -, -, -, -, e0, e1⟩ := idxParams t
  match a with
  | ⟨0, _⟩ => show win0_12.index t (0 : Fin 2) * 3 + 1 * j.val = j.val; omega
  | ⟨1, _⟩ => show win0_12.index t (1 : Fin 2) * 128 + 1 * q.val = q.val; omega

/-- The output window is not cut at the array's end: what it writes back is the whole staging block. -/
theorem cut13 (t : Fin cfg0.N) (B : Vec Ideal S4000x128 .f32) : (cfg0.win 13).cut (grid0.coords t) B = B := rfl

/-! ## The windows' arrays when the kernel starts -/

theorem Vref0 (c : Dev nD) : V m c (Pipeline.arrRef spec0 0) = MI m c := Entry.V_mi m c
theorem Vref1 (c : Dev nD) : V m c (Pipeline.arrRef spec0 1) = MO m c := Entry.V_mo m c
theorem Vref2 (c : Dev nD) : V m c (Pipeline.arrRef spec0 2) = m ((c : Thread nD τ).loc main_arg0) := V_main_arg0 m c
theorem Vref3 (c : Dev nD) : V m c (Pipeline.arrRef spec0 3) = V m c main_v30 := rfl
theorem Vref4 (c : Dev nD) : V m c (Pipeline.arrRef spec0 4) = V m c main_v32 := rfl
theorem Vref5 (c : Dev nD) : V m c (Pipeline.arrRef spec0 5) = V m c main_v34 := rfl
theorem Vref6 (c : Dev nD) : V m c (Pipeline.arrRef spec0 6) = m ((c : Thread nD τ).loc main_arg4) := V_main_arg4 m c
theorem Vref7 (c : Dev nD) : V m c (Pipeline.arrRef spec0 7) = m ((c : Thread nD τ).loc main_arg5) := V_main_arg5 m c
theorem Vref8 (c : Dev nD) : V m c (Pipeline.arrRef spec0 8) = m ((c : Thread nD τ).loc main_arg6) := V_main_arg6 m c
theorem Vref9 (c : Dev nD) : V m c (Pipeline.arrRef spec0 9) = V m c main_v35 := rfl
theorem Vref10 (c : Dev nD) : V m c (Pipeline.arrRef spec0 10) = m ((c : Thread nD τ).loc main_arg8) := V_main_arg8 m c
theorem Vref11 (c : Dev nD) : V m c (Pipeline.arrRef spec0 11) = m ((c : Thread nD τ).loc main_arg9) := V_main_arg9 m c
theorem Vref12 (c : Dev nD) : V m c (Pipeline.arrRef spec0 12) = m ((c : Thread nD τ).loc main_arg10) := V_main_arg10 m c

/-! ## Each window's block at a point, read at an entry, of the launch memory -/

theorem rd0 (c : Dev nD) (t : Fin cfg0.N) (p : Fin 4000) (k : Fin 128) :
    iblk m c 0 t (ix2 p k) = MI m c (ix2 (row t p) k) := by
  unfold iblk
  exact (read0 c _ t p k).trans (congrFun (Vref0 m c) _)

theorem rd1 (c : Dev nD) (t : Fin cfg0.N) (p : Fin 4000) (k : Fin 128) :
    iblk m c 1 t (ix2 p k) = MO m c (ix2 (row t p) k) := by
  unfold iblk
  exact (read1 c _ t p k).trans (congrFun (Vref1 m c) _)

theorem rd2 (c : Dev nD) (t : Fin cfg0.N) (p : Fin 4000) (k : Fin 128) :
    iblk m c 2 t (ix2 p k) = (m ((c : Thread nD τ).loc main_arg0) : S100000x128.Idx → EReal) (ix2 (row t p) k) := by
  unfold iblk
  exact (read2 c _ t p k).trans (congrFun (Vref2 m c) _)

theorem rd3 (c : Dev nD) (t : Fin cfg0.N) (k q : Fin 128) :
    iblk m c 3 t (ix2 k q) = (m ((c : Thread nD τ).loc main_arg3) : S384x128.Idx → EReal) (ix2 (⟨k.val, by omega⟩ : Fin 384) q) := by
  unfold iblk
  exact ((read3 c _ t k q).trans (congrFun (Vref3 m c) _)).trans (Entry.V_w0a m c k q)

theorem rd4 (c : Dev nD) (t : Fin cfg0.N) (k q : Fin 128) :
    iblk m c 4 t (ix2 k q) = (m ((c : Thread nD τ).loc main_arg3) : S384x128.Idx → EReal) (ix2 (⟨128 + k.val, by omega⟩ : Fin 384) q) := by
  unfold iblk
  exact ((read4 c _ t k q).trans (congrFun (Vref4 m c) _)).trans (Entry.V_w0b m c k q)

theorem rd5 (c : Dev nD) (t : Fin cfg0.N) (k q : Fin 128) :
    iblk m c 5 t (ix2 k q) = (m ((c : Thread nD τ).loc main_arg3) : S384x128.Idx → EReal) (ix2 (⟨256 + k.val, by omega⟩ : Fin 384) q) := by
  unfold iblk
  exact ((read5 c _ t k q).trans (congrFun (Vref5 m c) _)).trans (Entry.V_w0c m c k q)

theorem rd6 (c : Dev nD) (t : Fin cfg0.N) (q : Fin 128) :
    iblk m c 6 t (ix1 q) = (m ((c : Thread nD τ).loc main_arg4) : S128.Idx → EReal) (ix1 q) := by
  unfold iblk
  exact (read6 c _ t q).trans (congrFun (Vref6 m c) _)

theorem rd7 (c : Dev nD) (t : Fin cfg0.N) (q : Fin 128) :
    iblk m c 7 t (ix1 q) = (m ((c : Thread nD τ).loc main_arg5) : S128.Idx → EReal) (ix1 q) := by
  unfold iblk
  exact (read7 c _ t q).trans (congrFun (Vref7 m c) _)

theorem rd8 (c : Dev nD) (t : Fin cfg0.N) (q : Fin 128) :
    iblk m c 8 t (ix1 q) = (m ((c : Thread nD τ).loc main_arg6) : S128.Idx → EReal) (ix1 q) := by
  unfold iblk
  exact (read8 c _ t q).trans (congrFun (Vref8 m c) _)

theorem rd9 (c : Dev nD) (t : Fin cfg0.N) (j : Fin 3) (k q : Fin 128) :
    iblk m c 9 t (ix3 j k q) = (m ((c : Thread nD τ).loc main_arg7) : S3x128x128.Idx → EReal) (ix3 j k q) := by
  unfold iblk
  exact ((read9 c _ t j k q).trans (congrFun (Vref9 m c) _)).trans (Entry.V_w m c (ix3 j k q))

theorem rd10 (c : Dev nD) (t : Fin cfg0.N) (j : Fin 3) (q : Fin 128) :
    iblk m c 10 t (ix2 j q) = (m ((c : Thread nD τ).loc main_arg8) : S3x128.Idx → EReal) (ix2 j q) := by
  unfold iblk
  exact (read10 c _ t j q).trans (congrFun (Vref10 m c) _)

theorem rd11 (c : Dev nD) (t : Fin cfg0.N) (j : Fin 3) (q : Fin 128) :
    iblk m c 11 t (ix2 j q) = (m ((c : Thread nD τ).loc main_arg9) : S3x128.Idx → EReal) (ix2 j q) := by
  unfold iblk
  exact (read11 c _ t j q).trans (congrFun (Vref11 m c) _)

theorem rd12 (c : Dev nD) (t : Fin cfg0.N) (j : Fin 3) (q : Fin 128) :
    iblk m c 12 t (ix2 j q) = (m ((c : Thread nD τ).loc main_arg10) : S3x128.Idx → EReal) (ix2 j q) := by
  unfold iblk
  exact (read12 c _ t j q).trans (congrFun (Vref12 m c) _)

end Cert.KernelIdeal.Blocks

end
-- ==== Proof.LibExpertMlp.lean ====
/-
  A bank of independent three-layer perceptrons ("experts") applied to the same rows, entry by entry, over the extended reals.

  Expert `p` has weight matrices `w1` (H × d), `w2` (H × H), `w3` (e × H), stored one row per OUTPUT unit, and
  biases `b1`, `b2` (H), `b3` (e). On a row `x` of `d` numbers it computes
      h1 h = max (∑ⱼ x j · w1 h j + b1 h, 0),   h2 k = max (∑ₕ h1 h · w2 k h + b2 k, 0),   out o = ∑ₖ h2 k · w3 o k + b3 o.
  Below: that entry (`mlpAt`), the whole result of `P` experts on `N` rows as one array `[P, N, e]` (`mlpArr`), the product
  of an `n × K` matrix with the ROWS of an `M × K` matrix as a plain sum, and how a vector unit spells one block of rows
  of one expert (products into a zero accumulator after a change of float format, a bias recast as a row and spread over
  the rows, a maximum with a spread zero). General in every extent.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

open scoped BigOperators

namespace Cert.ExpertMlp

open Idealize.ShloMosaic Idealize.ShloMosaic.ValueIdx

/-- The number the 32-bit zero word denotes. -/
abbrev zero : EReal := Ideal.ofBits .f32 0x00000000#32

/-- One output of one expert on one row. -/
def mlpAt {d e H : ℕ} (x : Fin d → EReal) (w1 : Fin H → Fin d → EReal) (b1 : Fin H → EReal)
    (w2 : Fin H → Fin H → EReal) (b2 : Fin H → EReal) (w3 : Fin e → Fin H → EReal) (b3 : Fin e → EReal) (o : Fin e) : EReal :=
  (∑ k : Fin H, max ((∑ h : Fin H, max ((∑ j : Fin d, x j * w1 h j) + b1 h) zero * w2 k h) + b2 k) zero * w3 o k) + b3 o

/-- All `P` experts on all `N` rows: entry `(p, r, o)` is output `o` of expert `p` on row `r`. -/
def mlpArr {P N d e H : ℕ} (x : (⟨2, ![N, d]⟩ : Shape).Idx → EReal) (W1 : (⟨3, ![P, H, d]⟩ : Shape).Idx → EReal)
    (B1 : (⟨2, ![P, H]⟩ : Shape).Idx → EReal) (W2 : (⟨3, ![P, H, H]⟩ : Shape).Idx → EReal) (B2 : (⟨2, ![P, H]⟩ : Shape).Idx → EReal)
    (W3 : (⟨3, ![P, e, H]⟩ : Shape).Idx → EReal) (B3 : (⟨2, ![P, e]⟩ : Shape).Idx → EReal) : (⟨3, ![P, N, e]⟩ : Shape).Idx → EReal :=
  fun i => mlpAt (fun j => x (ix2 (i 1) j)) (fun h j => W1 (ix3 (i 0) h j)) (fun h => B1 (ix2 (i 0) h))
    (fun k h => W2 (ix3 (i 0) k h)) (fun k => B2 (ix2 (i 0) k)) (fun o k => W3 (ix3 (i 0) o k)) (fun o => B3 (ix2 (i 0) o)) (i 2)

/-- The contraction's sum of a product against the ROWS of the second matrix, re-indexed by the one contracted coordinate. -/
theorem sum_contr_rows {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's product of an `n × K` matrix with the rows of an `M × K` matrix, into the zero accumulator, at
    entry (p, c): `∑ k, lhs (p, k) · rhs (c, k)`. -/
theorem matmul_rows_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_rows D hr hs l0 l1 r0 r1 lhs rhs p c)

/-- A bias of `M` numbers held as a one-row matrix, recast as a vector, recast back as a row and spread over `n` rows,
    reads at (p, q) the bias's entry `q`. -/
theorem bias_apply {α : Type} {n M : ℕ} (b : (⟨2, ![1, M]⟩ : Shape).Idx → α)
    (h0 : (⟨2, ![1, M]⟩ : Shape).ShapeCasts ⟨1, ![M]⟩) (h1 : (⟨1, ![M]⟩ : Shape).ShapeCasts ⟨2, ![1, M]⟩)
    (h2 : (⟨2, ![1, M]⟩ : Shape).Broadcasts ⟨2, ![n, M]⟩) (p : Fin n) (q : Fin M) :
    broadcastTo ⟨2, ![n, M]⟩ (shapeCast ⟨2, ![1, M]⟩ (shapeCast ⟨1, ![M]⟩ b h0) h1) h2 (ix2 p q) = b (ix2 0 q) :=
  ((broadcastTo_1b_ab_apply _ h2 p q).trans (shapeCast_a_1a_apply _ h1 0 q)).trans (shapeCast_1a_a_apply b h0 q)

/-- One block of `n` rows through one expert, as a vector unit spells it — the rows and the first two weight matrices
    narrowed to a shorter float format, each product taken into the zero accumulator against the ROWS of the weight
    matrix (held with a leading unit axis), each bias (a one-row matrix) recast and spread over the rows, each hidden
    layer cut at a spread zero — reads at entry (r, o) output `o` of the expert on row `r`. -/
theorem body_apply {n d e H : ℕ} {ψ : FTy}
    (D1 : DotDims (⟨2, ![n, d]⟩ : Shape) (⟨2, ![H, d]⟩ : Shape) (⟨2, ![n, H]⟩ : Shape))
    (h1r : D1.contr.rank = 1) (h1s : D1.contr.size ⟨0, by omega⟩ = d)
    (l10 : ∀ (i : (⟨2, ![n, H]⟩ : Shape).Idx) (q : D1.contr.Idx), (D1.lhsIdx i q 0).val = (i 0).val)
    (l11 : ∀ (i : (⟨2, ![n, H]⟩ : Shape).Idx) (q : D1.contr.Idx), (D1.lhsIdx i q 1).val = (q ⟨0, by omega⟩).val)
    (r10 : ∀ (i : (⟨2, ![n, H]⟩ : Shape).Idx) (q : D1.contr.Idx), (D1.rhsIdx i q 0).val = (i 1).val)
    (r11 : ∀ (i : (⟨2, ![n, H]⟩ : Shape).Idx) (q : D1.contr.Idx), (D1.rhsIdx i q 1).val = (q ⟨0, by omega⟩).val)
    (D2 : DotDims (⟨2, ![n, H]⟩ : Shape) (⟨2, ![H, H]⟩ : Shape) (⟨2, ![n, H]⟩ : Shape))
    (h2r : D2.contr.rank = 1) (h2s : D2.contr.size ⟨0, by omega⟩ = H)
    (l20 : ∀ (i : (⟨2, ![n, H]⟩ : Shape).Idx) (q : D2.contr.Idx), (D2.lhsIdx i q 0).val = (i 0).val)
    (l21 : ∀ (i : (⟨2, ![n, H]⟩ : Shape).Idx) (q : D2.contr.Idx), (D2.lhsIdx i q 1).val = (q ⟨0, by omega⟩).val)
    (r20 : ∀ (i : (⟨2, ![n, H]⟩ : Shape).Idx) (q : D2.contr.Idx), (D2.rhsIdx i q 0).val = (i 1).val)
    (r21 : ∀ (i : (⟨2, ![n, H]⟩ : Shape).Idx) (q : D2.contr.Idx), (D2.rhsIdx i q 1).val = (q ⟨0, by omega⟩).val)
    (D3 : DotDims (⟨2, ![n, H]⟩ : Shape) (⟨2, ![e, H]⟩ : Shape) (⟨2, ![n, e]⟩ : Shape))
    (h3r : D3.contr.rank = 1) (h3s : D3.contr.size ⟨0, by omega⟩ = H)
    (l30 : ∀ (i : (⟨2, ![n, e]⟩ : Shape).Idx) (q : D3.contr.Idx), (D3.lhsIdx i q 0).val = (i 0).val)
    (l31 : ∀ (i : (⟨2, ![n, e]⟩ : Shape).Idx) (q : D3.contr.Idx), (D3.lhsIdx i q 1).val = (q ⟨0, by omega⟩).val)
    (r30 : ∀ (i : (⟨2, ![n, e]⟩ : Shape).Idx) (q : D3.contr.Idx), (D3.rhsIdx i q 0).val = (i 1).val)
    (r31 : ∀ (i : (⟨2, ![n, e]⟩ : Shape).Idx) (q : D3.contr.Idx), (D3.rhsIdx i q 1).val = (q ⟨0, by omega⟩).val)
    (x0 : FVec Ideal (⟨2, ![n, d]⟩ : Shape) .f32) (v3 : FVec Ideal (⟨3, ![1, H, d]⟩ : Shape) .f32)
    (v7 : FVec Ideal (⟨2, ![1, H]⟩ : Shape) .f32) (v10 : FVec Ideal (⟨3, ![1, H, H]⟩ : Shape) .f32)
    (v14 : FVec Ideal (⟨2, ![1, H]⟩ : Shape) .f32) (v17 : FVec Ideal (⟨3, ![1, e, H]⟩ : Shape) .f32)
    (v20 : FVec Ideal (⟨2, ![1, e]⟩ : Shape) .f32)
    (c1 : (⟨3, ![1, H, d]⟩ : Shape).ShapeCasts ⟨2, ![H, d]⟩) (c2 : (⟨2, ![1, H]⟩ : Shape).ShapeCasts ⟨1, ![H]⟩)
    (c3 : (⟨3, ![1, H, H]⟩ : Shape).ShapeCasts ⟨2, ![H, H]⟩) (c4 : (⟨3, ![1, e, H]⟩ : Shape).ShapeCasts ⟨2, ![e, H]⟩)
    (c5 : (⟨2, ![1, e]⟩ : Shape).ShapeCasts ⟨1, ![e]⟩) (c6 : (⟨1, ![H]⟩ : Shape).ShapeCasts ⟨2, ![1, H]⟩)
    (c7 : (⟨1, ![e]⟩ : Shape).ShapeCasts ⟨2, ![1, e]⟩) (bH : (⟨2, ![1, H]⟩ : Shape).Broadcasts ⟨2, ![n, H]⟩)
    (be : (⟨2, ![1, e]⟩ : Shape).Broadcasts ⟨2, ![n, e]⟩) (hlt : ψ.bits < FTy.f32.bits) (r : Fin n) (o : Fin e) :
    addf (matmul D3 none
        (maximumf (addf (matmul D2 none
            (truncf ψ (maximumf (addf (matmul D1 none (truncf ψ x0 hlt) (truncf ψ (shapeCast ⟨2, ![H, d]⟩ v3 c1) hlt)
                (constant (⟨2, ![n, H]⟩ : Shape) .f32 0x00000000#32))
              (broadcastTo ⟨2, ![n, H]⟩ (shapeCast ⟨2, ![1, H]⟩ (shapeCast ⟨1, ![H]⟩ v7 c2) c6) bH))
              (broadcast ⟨2, ![n, H]⟩ (Scalar.ofBits .f32 0x00000000#32))) hlt)
            (truncf ψ (shapeCast ⟨2, ![H, H]⟩ v10 c3) hlt) (constant (⟨2, ![n, H]⟩ : Shape) .f32 0x00000000#32))
          (broadcastTo ⟨2, ![n, H]⟩ (shapeCast ⟨2, ![1, H]⟩ (shapeCast ⟨1, ![H]⟩ v14 c2) c6) bH))
          (broadcast ⟨2, ![n, H]⟩ (Scalar.ofBits .f32 0x00000000#32)))
        (shapeCast ⟨2, ![e, H]⟩ v17 c4) (constant (⟨2, ![n, e]⟩ : Shape) .f32 0x00000000#32))
      (broadcastTo ⟨2, ![n, e]⟩ (shapeCast ⟨2, ![1, e]⟩ (shapeCast ⟨1, ![e]⟩ v20 c5) c7) be) (ix2 r o)
      = mlpAt (fun j => x0 (ix2 r j)) (fun h j => v3 (ix3 0 h j)) (fun h => v7 (ix2 0 h)) (fun k h => v10 (ix3 0 k h))
          (fun k => v14 (ix2 0 k)) (fun o' k => v17 (ix3 0 o' k)) (fun o' => v20 (ix2 0 o')) o := by
  simp only [mlpAt, addf_apply, maximumf_apply, broadcast_apply, truncf_apply,
    matmul_rows_apply D3 h3r h3s l30 l31 r30 r31, matmul_rows_apply D2 h2r h2s l20 l21 r20 r21,
    matmul_rows_apply D1 h1r h1s l10 l11 r10 r11, bias_apply, shapeCast_1ab_ab_apply]
  rfl

/-- An output of an expert on a row reads the row, the expert's weights and biases, and nothing else: two readings whose
    ingredients agree entry by entry agree. -/
theorem mlpAt_congr {d e H : ℕ} {x x' : Fin d → EReal} {w1 w1' : Fin H → Fin d → EReal} {b1 b1' : Fin H → EReal}
    {w2 w2' : Fin H → Fin H → EReal} {b2 b2' : Fin H → EReal} {w3 w3' : Fin e → Fin H → EReal} {b3 b3' : Fin e → EReal}
    {o o' : Fin e} (hx : ∀ j, x j = x' j) (h1 : ∀ h j, w1 h j = w1' h j) (hb1 : ∀ h, b1 h = b1' h)
    (h2 : ∀ k h, w2 k h = w2' k h) (hb2 : ∀ k, b2 k = b2' k) (h3 : ∀ q k, w3 q k = w3' q k) (hb3 : ∀ q, b3 q = b3' q)
    (ho : o = o') : mlpAt x w1 b1 w2 b2 w3 b3 o = mlpAt x' w1' b1' w2' b2' w3' b3' o' := by
  subst ho
  obtain rfl : x = x' := funext hx
  obtain rfl : w1 = w1' := funext fun h => funext (h1 h)
  obtain rfl : b1 = b1' := funext hb1
  obtain rfl : w2 = w2' := funext fun k => funext (h2 k)
  obtain rfl : b2 = b2' := funext hb2
  obtain rfl : w3 = w3' := funext fun q => funext (h3 q)
  obtain rfl : b3 = b3' := funext hb3
  rfl

/-- A load of ONE leading slice of a rank-3 array — a unit-stride rectangle of extents `[1, A, B]` at offsets
    `(p, 0, 0)`, however the offsets are spelt — reads at `(0, a, b)` the array at `(p, a, b)`. -/
theorem ld_lead3 {Val : EltTy → Type} {el : EltTy} {P A B : ℕ} (X : (⟨3, ![P, A, B]⟩ : Shape).Idx → Val el)
    (off : Fin 3 → ℕ) (inb : ∀ a, off a + (![1, A, B] : Fin 3 → ℕ) a ≤ (⟨3, ![P, A, B]⟩ : Shape).size a)
    (p : Fin P) (hoff : off = ![p.val, 0, 0]) (a : Fin A) (b : Fin B) :
    View.ld X (Rect.unit (s := ⟨3, ![P, A, B]⟩) off ![1, A, B] inb) (ix3 (0 : Fin 1) a b) = X (ix3 p a b) := by
  subst hoff
  refine congrArg X (funext fun ax => Fin.ext ?_)
  match ax with
  | ⟨0, _⟩ => show p.val + 1 * 0 = p.val; omega
  | ⟨1, _⟩ => show 0 + 1 * a.val = a.val; omega
  | ⟨2, _⟩ => show 0 + 1 * b.val = b.val; omega

/-- A load of ONE row of a matrix — a unit-stride rectangle of extents `[1, A]` at offsets `(p, 0)` — reads at
    `(0, a)` the matrix at `(p, a)`. -/
theorem ld_lead2 {Val : EltTy → Type} {el : EltTy} {P A : ℕ} (X : (⟨2, ![P, A]⟩ : Shape).Idx → Val el)
    (off : Fin 2 → ℕ) (inb : ∀ a, off a + (![1, A] : Fin 2 → ℕ) a ≤ (⟨2, ![P, A]⟩ : Shape).size a)
    (p : Fin P) (hoff : off = ![p.val, 0]) (a : Fin A) :
    View.ld X (Rect.unit (s := ⟨2, ![P, A]⟩) off ![1, A] inb) (ix2 (0 : Fin 1) a) = X (ix2 p a) := by
  subst hoff
  refine congrArg X (funext fun ax => Fin.ext ?_)
  match ax with
  | ⟨0, _⟩ => show p.val + 1 * 0 = p.val; omega
  | ⟨1, _⟩ => show 0 + 1 * a.val = a.val; omega

end Cert.ExpertMlp

end
-- ==== Proof.KernelBody.lean ====
/-
  One block of the node network as the vector unit computes it.

  The kernel's body takes a block of 4000 nodes — 4000 rows of mi, of mo and of x —, the three 128 × 128 blocks of the
  first weight matrix, the stack of three further weight matrices and the per-layer biases, scales and shifts, and
  writes a block of 4000 output rows.  Read at row p and column c, what it writes is the network of `NodeMlp` applied
  to row p of the three input blocks: every product contracts one row against a weight matrix, and every mean and
  variance is taken along one row, so no entry looks outside its own row.
-/
import proofs.«101905_j14233521619351_2_alg».proof.Proof.Gen.KernelIdeal.Frame
import proofs.«101905_j14233521619351_2_alg».proof.Proof.NodeMlp
import proofs.«101905_j14233521619351_2_alg».proof.Proof.LibExpertMlp
import Idealize.ShloMosaic.Lib.ValueLayout

noncomputable section

open scoped BigOperators

namespace Cert.KernelIdeal.Body

open Idealize.ShloMosaic Idealize.ShloMosaic.ValueIdx Cert.KernelIdeal Cert.KernelIdeal.Gen Cert.NormLayer Cert.NodeMlp

/-! ## The product's dimension numbers: rows of the left operand against columns of the right -/

local notation "D" => dot_S4000x128_S128x128_S4000x128_1_0_0_1_n_n

theorem hr : (D).contr.rank = 1 := rfl
theorem hs : (D).contr.size ⟨0, by decide⟩ = 128 := rfl
theorem l0 : ∀ (i : S4000x128.Idx) (q : (D).contr.Idx), ((D).lhsIdx i q 0).val = (i 0).val := fun _ _ => rfl
theorem l1 : ∀ (i : S4000x128.Idx) (q : (D).contr.Idx), ((D).lhsIdx i q 1).val = (q ⟨0, by decide⟩).val := fun _ _ => rfl
theorem r0 : ∀ (i : S4000x128.Idx) (q : (D).contr.Idx), ((D).rhsIdx i q 0).val = (q ⟨0, by decide⟩).val := fun _ _ => rfl
theorem r1 : ∀ (i : S4000x128.Idx) (q : (D).contr.Idx), ((D).rhsIdx i q 1).val = (i 1).val := fun _ _ => rfl

/-! ## Parameters recast: a vector as a row, a row flattened and made a row again, a one-slab stack as a matrix -/

theorem vecRow (v : Vec Ideal S128 .f32) (q : Fin 128) :
    shapeCast S1x128 v shapeCasts_S128_S1x128 (ix2 (0 : Fin 1) q) = v (ix1 q) := shapeCast_a_1a_apply v _ 0 q

theorem rowRow (v : Vec Ideal S1x128 .f32) (q : Fin 128) :
    shapeCast S1x128 (shapeCast S128 v shapeCasts_S1x128_S128) shapeCasts_S128_S1x128 (ix2 (0 : Fin 1) q)
      = v (ix2 (0 : Fin 1) q) := by
  rw [shapeCast_a_1a_apply, shapeCast_1a_a_apply]

theorem slabMat (v : Vec Ideal S1x128x128 .bf16) (k q : Fin 128) :
    shapeCast S128x128 v shapeCasts_S1x128x128_S128x128 (ix2 k q) = v (ix3 (0 : Fin 1) k q) :=
  shapeCast_1ab_ab_apply v _ k q

/-! ## The first layer, before its normalisation -/

section First

variable (v0 v3 v6 : Vec Ideal S4000x128 .f32) (v8 v11 v15 : Vec Ideal S128x128 .bf16) (v19 : Vec Ideal S128 .f32) (p : Fin 4000)

/-- Row p of the first layer's sums, as a function of row p of the three input blocks. -/
abbrev z0 : Fin 128 → EReal :=
  first (fun k => v0 (ix2 p k)) (fun k => v3 (ix2 p k)) (fun k => v6 (ix2 p k)) (fun k q => v8 (ix2 k q))
    (fun k q => v11 (ix2 k q)) (fun k q => v15 (ix2 k q)) (fun q => v19 (ix1 q))

theorem pay1_apply (c : Fin 128) : k0_pay1 v0 v3 v6 v8 v11 v15 v19 (ix2 p c) = z0 v0 v3 v6 v8 v11 v15 v19 p c := by
  unfold k0_pay1 z0 first
  simp only [shapeCast_self, matmul]
  rw [addf_apply, addf_apply, addf_apply, broadcastTo_1b_ab_apply _ broadcasts_S1x128_S4000x128 p c, vecRow,
    PlainDot.matmul_zero_apply D hr hs l0 l1 r0 r1 none _ _ p c, PlainDot.matmul_zero_apply D hr hs l0 l1 r0 r1 none _ _ p c,
    PlainDot.matmul_zero_apply D hr hs l0 l1 r0 r1 none _ _ p c]
  rfl

theorem pay2_apply (q : Fin 1) :
    k0_pay2 v0 v3 v6 v8 v11 v15 v19 (ix2 p q) = mean d128 (z0 v0 v3 v6 v8 v11 v15 v19 p) := by
  unfold k0_pay2
  exact vecMean_apply (n := 4000) (m := 128) _ _ reduces_S4000x128_S4000 _ _ shapeCasts_S4000_S4000x1 _ p q _
    (fun k => pay1_apply v0 v3 v6 v8 v11 v15 v19 p k)

theorem pay4_apply (c : Fin 128) :
    k0_pay4 v0 v3 v6 v8 v11 v15 v19 (ix2 p c) = mean d128 (z0 v0 v3 v6 v8 v11 v15 v19 p) := by
  unfold k0_pay4
  exact (LibColumns.broadcastTo_a1_ab_apply _ broadcasts_S4000x1_S4000x128 p c).trans (pay2_apply v0 v3 v6 v8 v11 v15 v19 p 0)

theorem pay3_apply (q : Fin 1) :
    k0_pay3 v0 v3 v6 v8 v11 v15 v19 (ix2 p q) = var d128 (z0 v0 v3 v6 v8 v11 v15 v19 p) := by
  unfold k0_pay3
  exact vecMean_apply (n := 4000) (m := 128) _ _ reduces_S4000x128_S4000 _ _ shapeCasts_S4000_S4000x1 _ p q _
    (fun k => by
      rw [mulf_apply, subf_apply, LibColumns.broadcastTo_a1_ab_apply _ broadcasts_S4000x1_S4000x128 p k,
        pay1_apply, pay2_apply]
      rfl)

end First

/-! ## Rows of the stacked parameters, flattened -/

theorem pay5_apply (v59 : Vec Ideal S1x128 .f32) (q : Fin 128) : k0_pay5 v59 (ix1 q) = v59 (ix2 (0 : Fin 1) q) := by
  unfold k0_pay5
  exact shapeCast_1a_a_apply v59 _ q

theorem pay6_apply (v61 : Vec Ideal S1x128 .f32) (q : Fin 128) : k0_pay6 v61 (ix1 q) = v61 (ix2 (0 : Fin 1) q) := by
  unfold k0_pay6
  exact shapeCast_1a_a_apply v61 _ q

/-- A product's sum with the weight slab recast as a matrix and the bias row flattened and made a row again is the
    dense layer on the row. -/
theorem dense_cast (a : Fin 128 → EReal) (S : Vec Ideal S1x128x128 .bf16) (B : Vec Ideal S1x128 .f32)
    (W : Fin 128 → Fin 128 → EReal) (b : Fin 128 → EReal)
    (hW : ∀ k q, S (ix3 (0 : Fin 1) k q) = W k q) (hb : ∀ q, B (ix2 (0 : Fin 1) q) = b q) (c : Fin 128) :
    (∑ k : Fin 128, a k * shapeCast S128x128 S shapeCasts_S1x128x128_S128x128 (ix2 k c))
        + shapeCast S1x128 (shapeCast S128 B shapeCasts_S1x128_S128) shapeCasts_S128_S1x128 (ix2 (0 : Fin 1) c)
      = dense a W b c := by
  unfold dense
  rw [rowRow, hb]
  exact congrArg (· + b c) (Finset.sum_congr rfl fun k _ => by rw [slabMat, hW])

/-! ## The second layer up to its normalisation, from the first layer's sums, mean and variance at row p -/

theorem pay7_apply (v22 : FVec Ideal S4000x128 .f32) (v23 v24 : Vec Ideal S128 .f32) (v35 : FVec Ideal S4000x1 .f32)
    (v36 : FVec Ideal S4000x128 .f32) (v51 : Vec Ideal S1x128x128 .bf16) (v54 : Vec Ideal S1x128 .f32)
    (p : Fin 4000) (c : Fin 128) (z : Fin 128 → EReal) (W : Fin 128 → Fin 128 → EReal) (b : Fin 128 → EReal)
    (h22 : ∀ k, v22 (ix2 p k) = z k) (h36 : ∀ k, v36 (ix2 p k) = mean d128 z) (h35 : v35 (ix2 p (0 : Fin 1)) = var d128 z)
    (hW : ∀ k q, v51 (ix3 (0 : Fin 1) k q) = W k q) (hb : ∀ q, v54 (ix2 (0 : Fin 1) q) = b q) :
    k0_pay7 v22 v23 v24 v35 v36 v51 v54 (ix2 p c)
      = normed d128 eps (dense (act z (fun q => v23 (ix1 q)) (fun q => v24 (ix1 q))) W b) c := by
  unfold k0_pay7
  refine vNormed_apply (n := 4000) (m := 128) _ _ reduces_S4000x128_S4000 _ _ shapeCasts_S4000_S4000x1 _ _
    broadcasts_S4000x1_S4000x128 p c _ (fun k => ?_)
  refine (vecDense_apply (n := 4000) (m := 128) (K := 128) D hr hs l0 l1 r0 r1 none _ _ _ broadcasts_S1x128_S4000x128 p k
    (act z (fun q => v23 (ix1 q)) (fun q => v24 (ix1 q))) (fun k' => ?_)).trans (dense_cast _ v51 v54 W b hW hb k)
  rw [truncf_apply]
  exact vecScaleShiftTanh_apply (n := 4000) (m := 128) _ _ _ broadcasts_S1x128_S4000x128 p k' _ _ _
    (vecNormed_apply (n := 4000) (m := 128) _ _ _ _ broadcasts_S4000x1_S4000x128 p k' _ _ _ (h22 k') (h36 k') h35)
    (vecRow v23 k') (vecRow v24 k')

/-! ## The second layer's output and the whole third layer, from the second layer's normalised row -/

theorem pay8_apply (v60 v62 : FVec Ideal S128 .f32) (v80 : FVec Ideal S4000x128 .f32) (v89 : Vec Ideal S1x128x128 .bf16)
    (v92 v97 v99 : Vec Ideal S1x128 .f32) (p : Fin 4000) (c : Fin 128) (a : Fin 128 → EReal)
    (W : Fin 128 → Fin 128 → EReal) (b g β : Fin 128 → EReal)
    (h80 : ∀ k, Ideal.tanh (v80 (ix2 p k) * v60 (ix1 k) + v62 (ix1 k)) = a k)
    (hW : ∀ k q, v89 (ix3 (0 : Fin 1) k q) = W k q) (hb : ∀ q, v92 (ix2 (0 : Fin 1) q) = b q)
    (hg : ∀ q, v97 (ix2 (0 : Fin 1) q) = g q) (hβ : ∀ q, v99 (ix2 (0 : Fin 1) q) = β q) :
    k0_pay8 v60 v62 v80 v89 v92 v97 v99 (ix2 p c) = act (dense a W b) g β c := by
  unfold k0_pay8
  refine vNormTanh_apply (n := 4000) (m := 128) _ _ reduces_S4000x128_S4000 _ _ shapeCasts_S4000_S4000x1 _ _
    broadcasts_S4000x1_S4000x128 _ _ broadcasts_S1x128_S4000x128 p c _ _ _ (fun k => ?_)
    (fun q => (rowRow v97 q).trans (hg q)) (fun q => (rowRow v99 q).trans (hβ q))
  refine (vecDense_apply (n := 4000) (m := 128) (K := 128) D hr hs l0 l1 r0 r1 none _ _ _ broadcasts_S1x128_S4000x128 p k
    a (fun k' => ?_)).trans (dense_cast _ v89 v92 W b hW hb k)
  rw [truncf_apply]
  exact (vecScaleShiftTanh_apply (n := 4000) (m := 128) _ _ _ broadcasts_S1x128_S4000x128 p k' _ _ _ rfl
    (vecRow v60 k') (vecRow v62 k')).trans (h80 k')

/-! ## The last layer, from the third layer's output row -/

theorem pay9_apply (v125 : FVec Ideal S4000x128 .f32) (v127 : Vec Ideal S1x128x128 .bf16) (v130 v135 v137 : Vec Ideal S1x128 .f32)
    (p : Fin 4000) (c : Fin 128) (a : Fin 128 → EReal) (W : Fin 128 → Fin 128 → EReal) (b g β : Fin 128 → EReal)
    (h125 : ∀ k, v125 (ix2 p k) = a k)
    (hW : ∀ k q, v127 (ix3 (0 : Fin 1) k q) = W k q) (hb : ∀ q, v130 (ix2 (0 : Fin 1) q) = b q)
    (hg : ∀ q, v135 (ix2 (0 : Fin 1) q) = g q) (hβ : ∀ q, v137 (ix2 (0 : Fin 1) q) = β q) :
    k0_pay9 v125 v127 v130 v135 v137 (ix2 p c) = act (dense a W b) g β c := by
  unfold k0_pay9
  refine vNormTanh_apply (n := 4000) (m := 128) _ _ reduces_S4000x128_S4000 _ _ shapeCasts_S4000_S4000x1 _ _
    broadcasts_S4000x1_S4000x128 _ _ broadcasts_S1x128_S4000x128 p c _ _ _ (fun k => ?_)
    (fun q => (rowRow v135 q).trans (hg q)) (fun q => (rowRow v137 q).trans (hβ q))
  refine (vecDense_apply (n := 4000) (m := 128) (K := 128) D hr hs l0 l1 r0 r1 none _ _ _ broadcasts_S1x128_S4000x128 p k
    a (fun k' => ?_)).trans (dense_cast _ v127 v130 W b hW hb k)
  rw [truncf_apply]
  exact h125 k'

/-! ## What the body leaves in the output block, at an entry -/

theorem hz2 : (![0, 0] : Fin 2 → Nat) = fun _ => 0 := funext fun a => by fin_cases a <;> rfl
theorem hz1 : (![0] : Fin 1 → Nat) = fun _ => 0 := funext fun a => by fin_cases a <;> rfl

/-- Entry (p, c) of the output block is the node network on row p of the three input blocks. -/
theorem out_apply (x0 x1 x2 : Vec Ideal S4000x128 .f32) (x3 x4 x5 : Vec Ideal S128x128 .bf16) (x6 x7 x8 : Vec Ideal S128 .f32)
    (x9 : Vec Ideal S3x128x128 .bf16) (x10 x11 x12 : Vec Ideal S3x128 .f32) (p : Fin 4000) (c : Fin 128) :
    out0_13 x0 x1 x2 x3 x4 x5 x6 x7 x8 x9 x10 x11 x12 (ix2 p c)
      = net (fun k => x0 (ix2 p k)) (fun k => x1 (ix2 p k)) (fun k => x2 (ix2 p k))
          (fun k q => x3 (ix2 k q)) (fun k q => x4 (ix2 k q)) (fun k q => x5 (ix2 k q))
          (fun q => x6 (ix1 q)) (fun q => x7 (ix1 q)) (fun q => x8 (ix1 q))
          (fun j k q => x9 (ix3 j k q)) (fun j q => x10 (ix2 j q)) (fun j q => x11 (ix2 j q)) (fun j q => x12 (ix2 j q)) c := by
  unfold out0_13
  rw [View.canon_unit_zero hz2]
  simp only [View.ld_unit_zero (S := S4000x128) hz2, View.ld_unit_zero (S := S128x128) hz2, View.ld_unit_zero (S := S128) hz1]
  refine pay9_apply _ _ _ _ _ p c _ _ _ _ _ (fun k => ?_)
    (fun k q => ExpertMlp.ld_lead3 x9 _ _ (2 : Fin 3) rfl k q) (fun q => ExpertMlp.ld_lead2 x10 _ _ (2 : Fin 3) rfl q)
    (fun q => ExpertMlp.ld_lead2 x11 _ _ (2 : Fin 3) rfl q) (fun q => ExpertMlp.ld_lead2 x12 _ _ (2 : Fin 3) rfl q)
  refine pay8_apply _ _ _ _ _ _ _ p k _ _ _ _ _ (fun k' => ?_)
    (fun k q => ExpertMlp.ld_lead3 x9 _ _ (1 : Fin 3) rfl k q) (fun q => ExpertMlp.ld_lead2 x10 _ _ (1 : Fin 3) rfl q)
    (fun q => ExpertMlp.ld_lead2 x11 _ _ (1 : Fin 3) rfl q) (fun q => ExpertMlp.ld_lead2 x12 _ _ (1 : Fin 3) rfl q)
  have h7 := pay7_apply (k0_pay1 x0 x1 x2 x3 x4 x5 x6) x7 x8 (k0_pay3 x0 x1 x2 x3 x4 x5 x6) (k0_pay4 x0 x1 x2 x3 x4 x5 x6)
      (View.ld x9 r0_3) (View.ld x10 r0_4) p k' (z0 x0 x1 x2 x3 x4 x5 x6 p)
      (fun k q => x9 (ix3 (0 : Fin 3) k q)) (fun q => x10 (ix2 (0 : Fin 3) q))
      (fun k'' => pay1_apply x0 x1 x2 x3 x4 x5 x6 p k'') (fun k'' => pay4_apply x0 x1 x2 x3 x4 x5 x6 p k'')
      (pay3_apply x0 x1 x2 x3 x4 x5 x6 p 0)
      (fun k q => ExpertMlp.ld_lead3 x9 _ _ (0 : Fin 3) rfl k q) (fun q => ExpertMlp.ld_lead2 x10 _ _ (0 : Fin 3) rfl q)
  have hg : View.ld x11 r0_4 (ix2 (0 : Fin 1) k') = x11 (ix2 (0 : Fin 3) k') := ExpertMlp.ld_lead2 x11 _ _ (0 : Fin 3) rfl k'
  have hβ : View.ld x12 r0_4 (ix2 (0 : Fin 1) k') = x12 (ix2 (0 : Fin 3) k') := ExpertMlp.ld_lead2 x12 _ _ (0 : Fin 3) rfl k'
  rw [h7, pay5_apply, pay6_apply, hg, hβ]
  rfl

end Cert.KernelIdeal.Body

end
-- ==== Proof.KernelBlocks.lean ====
/-
  From the kernel's blocks to its whole output array.

  What grid point t writes back is the body's output block of the 4000 rows it staged; by `KernelBody` its row p is
  the node network on row p of the staged blocks, which `KernelWindows` reads as row 4000·t + p of the message sums
  and features and the parameter arrays whole.  So point t writes block t of the array `NodeMlp.G` of the arguments;
  the 25 blocks cover the 100000 rows, and the array after the run is `G`.
-/
import proofs.«101905_j14233521619351_2_alg».proof.Proof.KernelWindows
import proofs.«101905_j14233521619351_2_alg».proof.Proof.KernelBody

noncomputable section

namespace Cert.KernelIdeal.Blocks

open Idealize.ShloMosaic Idealize.ShloMosaic.ValueIdx Idealize.ShloMosaic.TcCoe Idealize.SL.Sem
open Cert.KernelIdeal Cert.KernelIdeal.Gen Cert.NodeMlp
open Idealize.ShloMosaic.Pipeline (Dat)

variable (m : (ℓ : Loc nD τ sig) → Buf (Elt Ideal) ℓ) (ρ : Dev nD → PrngReg)

/-- The output array as one function of the launch memory. -/
abbrev out (c : Dev nD) : S100000x128.Idx → EReal :=
  G (MI m c) (MO m c) (m ((c : Thread nD τ).loc main_arg0)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-! ## What point t writes back is block t of the output array -/

/-- Entry (p, q) of the body's output block at point t is entry (4000·t + p, q) of the output array. -/
theorem block_apply (c : Dev nD) (t : Fin cfg0.N) (p : Fin 4000) (q : Fin 128) :
    out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 p q)
      = out m c (ix2 (row t p) q) := by
  unfold out
  rw [G_apply]
  refine (Body.out_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) p q).trans ?_
  have e0 : (fun k => iblk m c 0 t (ix2 p k)) = fun k => MI m c (ix2 (row t p) k) := funext fun k => rd0 m c t p k
  have e1 : (fun k => iblk m c 1 t (ix2 p k)) = fun k => MO m c (ix2 (row t p) k) := funext fun k => rd1 m c t p k
  have e2 : (fun k => iblk m c 2 t (ix2 p k))
      = fun k => (m ((c : Thread nD τ).loc main_arg0) : S100000x128.Idx → EReal) (ix2 (row t p) k) := funext fun k => rd2 m c t p k
  have e3 : (fun k q => iblk m c 3 t (ix2 k q))
      = fun k q => (m ((c : Thread nD τ).loc main_arg3) : S384x128.Idx → EReal) (ix2 (⟨k.val, by omega⟩ : Fin 384) q) :=
    funext fun k => funext fun q => rd3 m c t k q
  have e4 : (fun k q => iblk m c 4 t (ix2 k q))
      = fun k q => (m ((c : Thread nD τ).loc main_arg3) : S384x128.Idx → EReal) (ix2 (⟨128 + k.val, by omega⟩ : Fin 384) q) :=
    funext fun k => funext fun q => rd4 m c t k q
  have e5 : (fun k q => iblk m c 5 t (ix2 k q))
      = fun k q => (m ((c : Thread nD τ).loc main_arg3) : S384x128.Idx → EReal) (ix2 (⟨256 + k.val, by omega⟩ : Fin 384) q) :=
    funext fun k => funext fun q => rd5 m c t k q
  have e6 : (fun q => iblk m c 6 t (ix1 q)) = fun q => (m ((c : Thread nD τ).loc main_arg4) : S128.Idx → EReal) (ix1 q) :=
    funext fun q => rd6 m c t q
  have e7 : (fun q => iblk m c 7 t (ix1 q)) = fun q => (m ((c : Thread nD τ).loc main_arg5) : S128.Idx → EReal) (ix1 q) :=
    funext fun q => rd7 m c t q
  have e8 : (fun q => iblk m c 8 t (ix1 q)) = fun q => (m ((c : Thread nD τ).loc main_arg6) : S128.Idx → EReal) (ix1 q) :=
    funext fun q => rd8 m c t q
  have e9 : (fun j k q => iblk m c 9 t (ix3 j k q)) = fun j k q => (m ((c : Thread nD τ).loc main_arg7) : S3x128x128.Idx → EReal) (ix3 j k q) :=
    funext fun j => funext fun k => funext fun q => rd9 m c t j k q
  have e10 : (fun j q => iblk m c 10 t (ix2 j q)) = fun j q => (m ((c : Thread nD τ).loc main_arg8) : S3x128.Idx → EReal) (ix2 j q) :=
    funext fun j => funext fun q => rd10 m c t j q
  have e11 : (fun j q => iblk m c 11 t (ix2 j q)) = fun j q => (m ((c : Thread nD τ).loc main_arg9) : S3x128.Idx → EReal) (ix2 j q) :=
    funext fun j => funext fun q => rd11 m c t j q
  have e12 : (fun j q => iblk m c 12 t (ix2 j q)) = fun j q => (m ((c : Thread nD τ).loc main_arg10) : S3x128.Idx → EReal) (ix2 j q) :=
    funext fun j => funext fun q => rd12 m c t j q
  rw [e0, e1, e2, e3, e4, e5, e6, e7, e8, e9, e10, e11, e12]

theorem flushed13_eq (c : Dev nD) (t : Fin cfg0.N) :
    (dats m 0 c).flushed 13 t = ((cfg0.win 13).blk t).view.read (Elt Ideal) (out m c) := by
  rw [Value.flushed13, cut13]
  refine funext fun (j : S4000x128.Idx) => ?_
  obtain ⟨p, q, rfl⟩ : ∃ (p : Fin 4000) (q : Fin 128), j = ix2 p q := ⟨j 0, j 1, eq_ix2 j⟩
  exact (block_apply m c t p q).trans (read13 c (out m c) t p q).symm

/-! ## The 25 blocks cover the array -/

theorem mem_blk13 (t : Fin cfg0.N) (i : S100000x128.Idx) :
    i ∈ ((cfg0.win 13).blk t).view.set ↔ ∀ a : Fin 2, win0_13.index t a * S4000x128.size a ≤ (i a).val
      ∧ (i a).val < win0_13.index t a * S4000x128.size a + S4000x128.size a := by
  show i ∈ ((View.whole main_v36).slice (win0_13.rect t)).set ↔ _
  rw [View.set_slice_whole, Rect.mem_set_unit]
  exact Iff.rfl

theorem cover13 (i : S100000x128.Idx) :
    ∃ t : Fin cfg0.N, (cfg0.win 13).flush t = true ∧ i ∈ ((cfg0.win 13).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have ht : t.val = (i 0).val / 4000 := rfl
  obtain ⟨-, -, -, -, -, -, e0, e1⟩ := idxRows t
  refine ⟨t, flush0_13 t, ?_⟩
  rw [mem_blk13]
  intro a
  match a with
  | ⟨0, _⟩ =>
    show win0_13.index t (0 : Fin 2) * 4000 ≤ (i 0).val ∧ (i 0).val < win0_13.index t (0 : Fin 2) * 4000 + 4000
    omega
  | ⟨1, _⟩ =>
    show win0_13.index t (1 : Fin 2) * 128 ≤ (i 1).val ∧ (i 1).val < win0_13.index t (1 : Fin 2) * 128 + 128
    omega

/-! ## The array after the run, and the run -/

theorem final13 (c : Dev nD) : (dats m 0 c).arrAt 13 cfg0.N = out m c :=
  (dats m 0 c).arrAt_eq_of_cover 13 (out m c) (fun t _ => flushed13_eq m c t) (fun i => cover13 i)

/-- Every weakly fair execution of the kernel's program ends with the result array at the node network of the
    arguments, and the arguments unchanged. -/
theorem run : θ_run defs (onTc (τ := τ) (main (F := Ideal))) ⟨m, fun _ => 0, ρ⟩ fun r => ∀ c : Dev nD,
      r.2.mem ((c : Thread nD τ).loc main_v36) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final13 m c), (h c).2⟩) (Value.run_blocks m ρ)

end Cert.KernelIdeal.Blocks

end
-- ==== Proof.FirstLayer.lean ====
/-
  A product with three matrices laid side by side is the sum of the three products.

  If a row of 384 numbers is three rows of 128 laid end to end, its product with a 384 × 128 matrix splits into the
  products of the three rows with the matrix's three blocks of 128 rows: a finite sum over 384 = 128 + 128 + 128 terms
  taken in three pieces.  Only the associativity of + is used, so it holds over the extended reals with no finiteness.
-/
import proofs.«101905_j14233521619351_2_alg».proof.Proof.NodeMlp

noncomputable section

open scoped BigOperators

namespace Cert.NodeMlp

open Idealize.ShloMosaic Idealize.ShloMosaic.ValueIdx

/-- A sum over n + n + n terms in three pieces. -/
theorem sum_three {β : Type*} [AddCommMonoid β] {n : ℕ} (f : Fin (n + n + n) → β) :
    ∑ j, f j = ((∑ k : Fin n, f (Fin.castAdd n (Fin.castAdd n k))) + ∑ k : Fin n, f (Fin.castAdd n (Fin.natAdd n k)))
      + ∑ k : Fin n, f (Fin.natAdd (n + n) k) := by
  rw [Fin.sum_univ_add, Fin.sum_univ_add]

/-- The first layer's sum over the joined row is its three-block form. -/
theorem first_of_joined (cat : Fin 384 → EReal) (W0 : (⟨2, ![384, 128]⟩ : Shape).Idx → EReal) (mi mo x : Fin 128 → EReal)
    (b : Fin 128 → EReal) (c : Fin 128)
    (h0 : ∀ k : Fin 128, cat (⟨k.val, by omega⟩ : Fin 384) = mi k)
    (h1 : ∀ k : Fin 128, cat (⟨128 + k.val, by omega⟩ : Fin 384) = mo k)
    (h2 : ∀ k : Fin 128, cat (⟨256 + k.val, by omega⟩ : Fin 384) = x k) :
    (∑ j : Fin 384, cat j * W0 (ix2 j c)) + b c
      = first mi mo x (fun k q => W0 (ix2 (⟨k.val, by omega⟩ : Fin 384) q))
          (fun k q => W0 (ix2 (⟨128 + k.val, by omega⟩ : Fin 384) q))
          (fun k q => W0 (ix2 (⟨256 + k.val, by omega⟩ : Fin 384) q)) b c := by
  unfold first
  refine congrArg (· + b c) ?_
  refine (sum_three (n := 128) (fun j : Fin 384 => cat j * W0 (ix2 j c))).trans ?_
  refine congrArg₂ (· + ·) (congrArg₂ (· + ·) (Finset.sum_congr rfl fun k _ => ?_) (Finset.sum_congr rfl fun k _ => ?_))
    (Finset.sum_congr rfl fun k _ => ?_)
  · rw [← h0 k]; rfl
  · rw [← h1 k]; rfl
  · rw [← h2 k]; rfl

end Cert.NodeMlp

end
-- ==== Proof.LibJoin3.lean ====
/-
  Three matrices with the same number of rows and the same number of columns laid side by side (a concatenation
  along axis 1), read at an entry: the entry in row `p` and column `j·n + k` of `[x₀ | x₁ | x₂]` is entry (p, k) of the
  j-th matrix. General in the extents.
-/
import Idealize.ShloMosaic.Lib.Pipeline.Value
import Idealize.ShloMosaic.Lib.ValueIdx

namespace Cert.LibJoin3

open Idealize.ShloMosaic Idealize.ShloMosaic.ValueIdx

variable {α : Type}

/-- Row `p`, column `c = j·n + k` of `[x₀ | x₁ | x₂]` is `xⱼ (p, k)`. -/
theorem concatenate_cols3_apply {a n N : Nat} (x0 x1 x2 : (⟨2, ![a, n]⟩ : Shape).Idx → α)
    (h : Shape.Concatenates [(⟨2, ![a, n]⟩ : Shape), (⟨2, ![a, n]⟩ : Shape), (⟨2, ![a, n]⟩ : Shape)] (⟨2, ![a, N]⟩ : Shape) 1)
    (p : Fin a) (c : Fin N) (k : Fin n) (j : Fin 3) (hc : j.val * n + k.val = c.val) :
    concatenate (⟨2, ![a, N]⟩ : Shape) 1
        [⟨(⟨2, ![a, n]⟩ : Shape), x0⟩, ⟨(⟨2, ![a, n]⟩ : Shape), x1⟩, ⟨(⟨2, ![a, n]⟩ : Shape), x2⟩] h (ix2 p c)
      = (match j with | 0 => x0 | 1 => x1 | 2 => x2) (ix2 p k) := by
  have hoff : ∀ b : Fin (⟨2, ![a, n]⟩ : Shape).rank, b.cast (rfl : (⟨2, ![a, n]⟩ : Shape).rank = (⟨2, ![a, N]⟩ : Shape).rank) ≠ (1 : Fin 2) →
      ((ix2 p k) b).val = ((ix2 p c) (b.cast rfl)).val := fun b hb => by
    match b with
    | ⟨0, _⟩ => rfl
    | ⟨1, _⟩ => exact absurd rfl hb
  match j with
  | 0 =>
    exact concatenate_apply_piece (t := (⟨2, ![a, N]⟩ : Shape)) (1 : Fin 2)
      [⟨(⟨2, ![a, n]⟩ : Shape), x0⟩, ⟨(⟨2, ![a, n]⟩ : Shape), x1⟩, ⟨(⟨2, ![a, n]⟩ : Shape), x2⟩] h (ix2 p c) 0 (by show 0 < 3; omega) _ x0 rfl rfl 0 rfl (ix2 p k) hoff
      (by show 0 + k.val = c.val; simpa using hc)
  | 1 =>
    exact concatenate_apply_piece (t := (⟨2, ![a, N]⟩ : Shape)) (1 : Fin 2)
      [⟨(⟨2, ![a, n]⟩ : Shape), x0⟩, ⟨(⟨2, ![a, n]⟩ : Shape), x1⟩, ⟨(⟨2, ![a, n]⟩ : Shape), x2⟩] h (ix2 p c) 1 (by show 1 < 3; omega) _ x1 rfl rfl n
      (by simp) (ix2 p k) hoff (by show n + k.val = c.val; simpa using hc)
  | 2 =>
    exact concatenate_apply_piece (t := (⟨2, ![a, N]⟩ : Shape)) (1 : Fin 2)
      [⟨(⟨2, ![a, n]⟩ : Shape), x0⟩, ⟨(⟨2, ![a, n]⟩ : Shape), x1⟩, ⟨(⟨2, ![a, n]⟩ : Shape), x2⟩] h (ix2 p c) 2 (by show 2 < 3; omega) _ x2 rfl rfl (n + n)
      (by simp) (ix2 p k) hoff (by show n + n + k.val = c.val; have : (2 : Fin 3).val = 2 := rfl; rw [this] at hc; omega)

end Cert.LibJoin3
-- ==== Proof.LibStackedRows.lean ====
/-
  Rows and slabs of stacked parameters read at an index.

  A network's per-channel parameters arrive either as a vector of length a or as row k of an n × a stack; a program that
  wants them as a 1 × a row reshapes the vector, or cuts the one row out, flattens it and reshapes it again.  Read at
  (0, q) each of these is the parameter's entry q: a reshape keeps the row-major position, and the row cut out at offset
  k starts at row k.  Likewise slab k of an n × a × b stack, cut out and flattened to a × b, reads at (p, q) as the
  stack's entry (k, p, q).
-/
import Idealize.ShloMosaic.Lib.ValueIdx
import Idealize.ShloMosaic.Lib.ValueLayout
import Idealize.ShloMosaic.Lib.Pipeline.Value

noncomputable section

namespace Cert.StackedRows

open Idealize.ShloMosaic Idealize.ShloMosaic.ValueIdx

variable {α : Type}

/-- A vector reshaped to a 1 × a row reads at (0, q) as the vector's entry q. -/
theorem row_of_vec {a : ℕ} (x : (⟨1, ![a]⟩ : Shape).Idx → α) (h : (⟨1, ![a]⟩ : Shape).ShapeCasts ⟨2, ![1, a]⟩) (q : Fin a) :
    shapeCast ⟨2, ![1, a]⟩ x h (ix2 (0 : Fin 1) q) = x (ix1 q) := shapeCast_a_1a_apply x h 0 q

/-- Row k of an n × a stack, cut out, flattened and reshaped to a 1 × a row, reads at (0, q) as the stack's entry (k, q). -/
theorem row_of_stack {n a : ℕ} (j : ℕ) (X : (⟨2, ![n, a]⟩ : Shape).Idx → α)
    (hs : (⟨2, ![n, a]⟩ : Shape).Slices ![j, 0] ⟨2, ![1, a]⟩)
    (h1 : (⟨2, ![1, a]⟩ : Shape).ShapeCasts ⟨1, ![a]⟩) (h2 : (⟨1, ![a]⟩ : Shape).ShapeCasts ⟨2, ![1, a]⟩)
    (k : Fin n) (hk : k.val = j) (q : Fin a) :
    shapeCast ⟨2, ![1, a]⟩ (shapeCast ⟨1, ![a]⟩ (extractStridedSlice ⟨2, ![1, a]⟩ ![j, 0] X hs) h1) h2 (ix2 (0 : Fin 1) q)
      = X (ix2 k q) := by
  rw [shapeCast_a_1a_apply, shapeCast_1a_a_apply]
  exact slice2_axis0_apply j X hs (0 : Fin 1) q k (by rw [hk]; rfl)

/-- Slab k of an n × a × b stack, cut out and flattened to a × b, reads at (p, q) as the stack's entry (k, p, q). -/
theorem slab_of_stack {n a b : ℕ} (j : ℕ) (X : (⟨3, ![n, a, b]⟩ : Shape).Idx → α)
    (hs : (⟨3, ![n, a, b]⟩ : Shape).Slices ![j, 0, 0] ⟨3, ![1, a, b]⟩)
    (h1 : (⟨3, ![1, a, b]⟩ : Shape).ShapeCasts ⟨2, ![a, b]⟩) (k : Fin n) (hk : k.val = j) (p : Fin a) (q : Fin b) :
    shapeCast ⟨2, ![a, b]⟩ (extractStridedSlice ⟨3, ![1, a, b]⟩ ![j, 0, 0] X hs) h1 (ix2 p q) = X (ix3 k p q) := by
  rw [shapeCast_1ab_ab_apply]
  exact extractStridedSlice_apply _ _ _ _ _ (fun ax => by
    match ax with
    | ⟨0, _⟩ => exact hk.trans (Nat.add_zero j).symm
    | ⟨1, _⟩ => exact (Nat.zero_add _).symm
    | ⟨2, _⟩ => exact (Nat.zero_add _).symm)

end Cert.StackedRows

end
-- ==== Proof.RefValue.lean ====
/-
  The reference's result array is the node network applied to every node.

  The reference sums the messages over incoming and outgoing edges exactly as the kernel's program does
  (`Agg.msgSum`), lays the two sums and the features side by side, multiplies by the whole 384 × 128 weight matrix and
  adds the bias; then normalises each row, scales, shifts and takes tanh; and repeats three times with slab j of the
  weight stack and row j of the stacked biases, scales and shifts.  Read at row P and column c, each stage depends on row
  P of the stage before, so the result is `NodeMlp.G` of the arguments.
-/
import proofs.«101905_j14233521619351_2_alg».proof.Proof.Gen.ReferenceIdeal.Run
import proofs.«101905_j14233521619351_2_alg».proof.Proof.Aggregate
import proofs.«101905_j14233521619351_2_alg».proof.Proof.NodeArray
import proofs.«101905_j14233521619351_2_alg».proof.Proof.FirstLayer
import proofs.«101905_j14233521619351_2_alg».proof.Proof.LibJoin3
import proofs.«101905_j14233521619351_2_alg».proof.Proof.LibStackedRows
import Idealize.ShloMosaic.Lib.ValueLayout

noncomputable section

open scoped BigOperators

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value Cert.NormLayer Cert.NodeMlp

variable (V0 : Valuation τ sig (Elt Ideal))

/-! ## The arguments as launched -/

abbrev aX : FVec Ideal S100000x128 .f32 := V0 (Proc.devRef .tc main_arg0)
abbrev aE : FVec Ideal S1600000 .f32 := V0 (Proc.devRef .tc main_arg1)
abbrev aI : IVec S2x1600000 32 := V0 (Proc.devRef .tc main_arg2)
abbrev aW0 : FVec Ideal S384x128 .f32 := V0 (Proc.devRef .tc main_arg3)
abbrev aB0 : FVec Ideal S128 .f32 := V0 (Proc.devRef .tc main_arg4)
abbrev aG0 : FVec Ideal S128 .f32 := V0 (Proc.devRef .tc main_arg5)
abbrev aBe0 : FVec Ideal S128 .f32 := V0 (Proc.devRef .tc main_arg6)
abbrev aW : FVec Ideal S3x128x128 .f32 := V0 (Proc.devRef .tc main_arg7)
abbrev aB : FVec Ideal S3x128 .f32 := V0 (Proc.devRef .tc main_arg8)
abbrev aG : FVec Ideal S3x128 .f32 := V0 (Proc.devRef .tc main_arg9)
abbrev aBe : FVec Ideal S3x128 .f32 := V0 (Proc.devRef .tc main_arg10)

/-- The messages summed over incoming edges. -/
abbrev MIr : FVec Ideal S100000x128 .f32 :=
  Cert.KernelIdeal.Agg.msgSum (aX V0) (aE V0) (Cert.KernelIdeal.Agg.starts (aI V0)) (Cert.KernelIdeal.Agg.ends (aI V0))

/-- The messages summed over outgoing edges. -/
abbrev MOr : FVec Ideal S100000x128 .f32 :=
  Cert.KernelIdeal.Agg.msgSum (aX V0) (aE V0) (Cert.KernelIdeal.Agg.ends (aI V0)) (Cert.KernelIdeal.Agg.starts (aI V0))

/-! ## The rows of the network at node P -/

/-- The first layer's sums at node P. -/
abbrev z0 (P : Fin 100000) : Fin 128 → EReal :=
  first (fun k => MIr V0 (ix2 P k)) (fun k => MOr V0 (ix2 P k)) (fun k => aX V0 (ix2 P k))
    (fun k q => aW0 V0 (ix2 (⟨k.val, by omega⟩ : Fin 384) q)) (fun k q => aW0 V0 (ix2 (⟨128 + k.val, by omega⟩ : Fin 384) q))
    (fun k q => aW0 V0 (ix2 (⟨256 + k.val, by omega⟩ : Fin 384) q)) (fun q => aB0 V0 (ix1 q))

/-- The first layer's output at node P. -/
abbrev a0 (P : Fin 100000) : Fin 128 → EReal := act (z0 V0 P) (fun q => aG0 V0 (ix1 q)) (fun q => aBe0 V0 (ix1 q))

/-- Hidden layer j's sums from the row before. -/
abbrev zL (h : Fin 128 → EReal) (j : Fin 3) : Fin 128 → EReal :=
  dense h (fun k q => aW V0 (ix3 j k q)) (fun q => aB V0 (ix2 j q))

/-- Hidden layer j's output from the row before. -/
abbrev aL (h : Fin 128 → EReal) (j : Fin 3) : Fin 128 → EReal :=
  act (zL V0 h j) (fun q => aG V0 (ix2 j q)) (fun q => aBe V0 (ix2 j q))

/-! ## The two products' dimension numbers -/

local notation "D384" => dot_S100000x384_S384x128_S100000x128_1_0_0_1_n_n
local notation "D128" => dot_S100000x128_S128x128_S100000x128_1_0_0_1_n_n

theorem hr384 : (D384).contr.rank = 1 := rfl
theorem hs384 : (D384).contr.size ⟨0, by decide⟩ = 384 := rfl
theorem l0_384 : ∀ (i : S100000x128.Idx) (q : (D384).contr.Idx), ((D384).lhsIdx i q 0).val = (i 0).val := fun _ _ => rfl
theorem l1_384 : ∀ (i : S100000x128.Idx) (q : (D384).contr.Idx), ((D384).lhsIdx i q 1).val = (q ⟨0, by decide⟩).val := fun _ _ => rfl
theorem r0_384 : ∀ (i : S100000x128.Idx) (q : (D384).contr.Idx), ((D384).rhsIdx i q 0).val = (q ⟨0, by decide⟩).val := fun _ _ => rfl
theorem r1_384 : ∀ (i : S100000x128.Idx) (q : (D384).contr.Idx), ((D384).rhsIdx i q 1).val = (i 1).val := fun _ _ => rfl

theorem hr128 : (D128).contr.rank = 1 := rfl
theorem hs128 : (D128).contr.size ⟨0, by decide⟩ = 128 := rfl
theorem l0_128 : ∀ (i : S100000x128.Idx) (q : (D128).contr.Idx), ((D128).lhsIdx i q 0).val = (i 0).val := fun _ _ => rfl
theorem l1_128 : ∀ (i : S100000x128.Idx) (q : (D128).contr.Idx), ((D128).lhsIdx i q 1).val = (q ⟨0, by decide⟩).val := fun _ _ => rfl
theorem r0_128 : ∀ (i : S100000x128.Idx) (q : (D128).contr.Idx), ((D128).rhsIdx i q 0).val = (q ⟨0, by decide⟩).val := fun _ _ => rfl
theorem r1_128 : ∀ (i : S100000x128.Idx) (q : (D128).contr.Idx), ((D128).rhsIdx i q 1).val = (i 1).val := fun _ _ => rfl

theorem hredRows : S100000x128.Reduces [1] S100000 := by decide

/-! ## Stages, stated once -/

/-- Row j of a 3 × 128 stack, cut out and flattened. -/
theorem rowOf (X : FVec Ideal S3x128 .f32) (j : ℕ) (jj : Fin 3) (hj : jj.val = j) (hs : S3x128.Slices ![j, 0] S1x128) (q : Fin 128) :
    shapeCast S128 (extractStridedSlice S1x128 ![j, 0] X hs) shapeCasts_S1x128_S128 (ix1 q) = X (ix2 jj q) := by
  rw [shapeCast_1a_a_apply]
  exact slice2_axis0_apply j X hs (0 : Fin 1) q jj (by rw [hj]; rfl)

/-- Normalise, scale, shift and tanh, from a pre-activation array whose row P is `z`, its mean column and its centred array. -/
theorem hostAct_apply (Z : FVec Ideal S100000x128 .f32) (Mcol : FVec Ideal S100000x1 .f32) (Cen : FVec Ideal S100000x128 .f32)
    (g β : FVec Ideal S128 .f32) (P : Fin 100000) (z gr βr : Fin 128 → EReal)
    (hZ : ∀ k, Z (ix2 P k) = z k) (hM : ∀ q, Mcol (ix2 P q) = mean d128 z) (hC : ∀ k, Cen (ix2 P k) = dev d128 z k)
    (hg : ∀ q, g (ix1 q) = gr q) (hβ : ∀ q, β (ix1 q) = βr q) (k : Fin 128) :
    Host.tanh (addf (mulf (mulf (subf Z (broadcastInDim S100000x128 ![0, 1] bcast_S100000x1_S100000x128_0_1 Mcol))
          (broadcastInDim S100000x128 ![0, 1] bcast_S100000x1_S100000x128_0_1
            (Host.rsqrt (addf (Host.divf (broadcastInDim S100000x1 ![0] bcast_S100000_S100000x1_0
                (Host.reduceAdd (mulf Cen Cen) (constant S_ .f32 0x00000000#32) reducesTo_S100000x128_S100000_d1 h_S_))
              (broadcastInDim S100000x1 ![] bcast_S_S100000x1 (constant S_ .f32 0x43000000#32)))
              (broadcastInDim S100000x1 ![] bcast_S_S100000x1 (constant S_ .f32 0x3727C5AC#32))))))
          (broadcastInDim S100000x128 ![0, 1] bcast_S1x128_S100000x128_0_1 (broadcastInDim S1x128 ![1] bcast_S128_S1x128_1 g)))
        (broadcastInDim S100000x128 ![0, 1] bcast_S1x128_S100000x128_0_1 (broadcastInDim S1x128 ![1] bcast_S128_S1x128_1 β))) (ix2 P k)
      = act z gr βr k :=
  hostScaleShiftTanh_apply (n := 100000) (m := 128) _ g β bcast_S128_S1x128_1 bcast_S1x128_S100000x128_0_1 P k _ _ _
    (hostNormed_apply (n := 100000) (m := 128) Z _ _ _ bcast_S_S100000x1 bcast_S100000x1_S100000x128_0_1 P k _ _ _ (hZ k)
      ((bcastCols_apply _ bcast_S100000x1_S100000x128_0_1 P k).trans (hM 0))
      (hostMean_apply (n := 100000) (m := 128) _ reducesTo_S100000x128_S100000_d1 hredRows h_S_ bcast_S100000_S100000x1_0
        bcast_S_S100000x1 _ P 0 _ (fun k' => by rw [mulf_apply, hC k'])))
    (hg k) (hβ k)

/-- The mean column of an array whose row P is `z`. -/
theorem hostMeanCol_apply (Z : FVec Ideal S100000x128 .f32) (P : Fin 100000) (z : Fin 128 → EReal) (hZ : ∀ k, Z (ix2 P k) = z k)
    (q : Fin 1) :
    Host.divf (broadcastInDim S100000x1 ![0] bcast_S100000_S100000x1_0
        (Host.reduceAdd Z (constant S_ .f32 0x00000000#32) reducesTo_S100000x128_S100000_d1 h_S_))
      (broadcastInDim S100000x1 ![] bcast_S_S100000x1 (constant S_ .f32 0x43000000#32)) (ix2 P q) = mean d128 z :=
  hostMean_apply (n := 100000) (m := 128) Z reducesTo_S100000x128_S100000_d1 hredRows h_S_ bcast_S100000_S100000x1_0
    bcast_S_S100000x1 _ P q z hZ

/-- An array less its mean column spread over the columns. -/
theorem hostCentred_apply (Z : FVec Ideal S100000x128 .f32) (Mcol : FVec Ideal S100000x1 .f32) (P : Fin 100000)
    (z : Fin 128 → EReal) (hZ : ∀ k, Z (ix2 P k) = z k) (hM : ∀ q, Mcol (ix2 P q) = mean d128 z) (c : Fin 128) :
    subf Z (broadcastInDim S100000x128 ![0, 1] bcast_S100000x1_S100000x128_0_1 Mcol) (ix2 P c) = dev d128 z c := by
  unfold dev
  rw [subf_apply, bcastCols_apply _ bcast_S100000x1_S100000x128_0_1 P c, hZ c, hM 0]

/-- Hidden layer j's sums: the activations times slab j of the weight stack, plus row j of the bias stack. -/
theorem hostHidden_apply (A : FVec Ideal S100000x128 .f32) (j : ℕ) (jj : Fin 3) (hj : jj.val = j)
    (hsW : S3x128x128.Slices ![j, 0, 0] S1x128x128) (hsB : S3x128.Slices ![j, 0] S1x128)
    (P : Fin 100000) (a : Fin 128 → EReal) (hA : ∀ k, A (ix2 P k) = a k) (c : Fin 128) :
    (addf (Host.dotGeneral D128 none A
          (shapeCast S128x128 (extractStridedSlice S1x128x128 ![j, 0, 0] (aW V0) hsW) shapeCasts_S1x128x128_S128x128))
        (broadcastInDim S100000x128 ![0, 1] bcast_S1x128_S100000x128_0_1 (broadcastInDim S1x128 ![1] bcast_S128_S1x128_1
          (shapeCast S128 (extractStridedSlice S1x128 ![j, 0] (aB V0) hsB) shapeCasts_S1x128_S128))) :
        FVec Ideal S100000x128 .f32) (ix2 P c)
      = zL V0 a jj c := by
  refine (hostDense_apply (n := 100000) (m := 128) (K := 128) D128 hr128 hs128 l0_128 l1_128 r0_128 r1_128 none A _ _
    bcast_S128_S1x128_1 bcast_S1x128_S100000x128_0_1 P c a hA).trans ?_
  unfold zL dense
  rw [rowOf (aB V0) j jj hj hsB c]
  exact congrArg (· + aB V0 (ix2 jj c)) (Finset.sum_congr rfl fun k _ => by
    rw [Cert.StackedRows.slab_of_stack j (aW V0) hsW shapeCasts_S1x128x128_S128x128 jj hj k c])

/-! ## The first layer -/

/-- The reference's first pre-activation array, with the two message sums named. -/
theorem v33_eq : res_main_v33 V0
    = (addf (Host.dotGeneral D384 none
          (concatenate S100000x384 1 [⟨S100000x128, MIr V0⟩, ⟨S100000x128, MOr V0⟩, ⟨S100000x128, aX V0⟩]
            concatenates_S100000x128_S100000x128_S100000x128_S100000x384_d1) (aW0 V0))
        (broadcastInDim S100000x128 ![0, 1] bcast_S1x128_S100000x128_0_1 (broadcastInDim S1x128 ![1] bcast_S128_S1x128_1 (aB0 V0))) :
        FVec Ideal S100000x128 .f32) := rfl

theorem v33_apply (P : Fin 100000) (c : Fin 128) : res_main_v33 V0 (ix2 P c) = z0 V0 P c := by
  rw [v33_eq]
  refine (hostDense_apply (n := 100000) (m := 128) (K := 384) D384 hr384 hs384 l0_384 l1_384 r0_384 r1_384 none _ (aW0 V0) (aB0 V0)
    bcast_S128_S1x128_1 bcast_S1x128_S100000x128_0_1 P c
    (fun j => concatenate S100000x384 1 [⟨S100000x128, MIr V0⟩, ⟨S100000x128, MOr V0⟩, ⟨S100000x128, aX V0⟩]
      concatenates_S100000x128_S100000x128_S100000x128_S100000x384_d1 (ix2 P j)) (fun _ => rfl)).trans ?_
  exact first_of_joined _ (aW0 V0) _ _ _ (fun q => aB0 V0 (ix1 q)) c
    (fun k => Cert.LibJoin3.concatenate_cols3_apply (MIr V0) (MOr V0) (aX V0) concatenates_S100000x128_S100000x128_S100000x128_S100000x384_d1
      P (⟨k.val, by omega⟩ : Fin 384) k (0 : Fin 3) (by show 0 * 128 + k.val = k.val; omega))
    (fun k => Cert.LibJoin3.concatenate_cols3_apply (MIr V0) (MOr V0) (aX V0) concatenates_S100000x128_S100000x128_S100000x128_S100000x384_d1
      P (⟨128 + k.val, by omega⟩ : Fin 384) k (1 : Fin 3) (by show 1 * 128 + k.val = 128 + k.val; omega))
    (fun k => Cert.LibJoin3.concatenate_cols3_apply (MIr V0) (MOr V0) (aX V0) concatenates_S100000x128_S100000x128_S100000x128_S100000x384_d1
      P (⟨256 + k.val, by omega⟩ : Fin 384) k (2 : Fin 3) (by show 2 * 128 + k.val = 256 + k.val; omega))

theorem v37_apply (P : Fin 100000) (q : Fin 1) : res_main_v37 V0 (ix2 P q) = mean d128 (z0 V0 P) := by
  unfold res_main_v37
  exact hostMeanCol_apply (res_main_v33 V0) P _ (v33_apply V0 P) q

theorem v39_apply (P : Fin 100000) (c : Fin 128) : res_main_v39 V0 (ix2 P c) = dev d128 (z0 V0 P) c := by
  unfold res_main_v39
  exact hostCentred_apply (res_main_v33 V0) (res_main_v37 V0) P _ (v33_apply V0 P) (v37_apply V0 P) c

/-! ## The second layer -/

theorem v66_apply (P : Fin 100000) (c : Fin 128) : res_main_v66 V0 (ix2 P c) = zL V0 (a0 V0 P) 0 c := by
  unfold res_main_v66
  exact hostHidden_apply V0 _ 0 0 rfl slices_S3x128x128_S1x128x128_0_0_0 slices_S3x128_S1x128_0_0 P (a0 V0 P)
    (fun k => hostAct_apply (res_main_v33 V0) (res_main_v37 V0) (res_main_v39 V0) (aG0 V0) (aBe0 V0) P (z0 V0 P) _ _
      (v33_apply V0 P) (v37_apply V0 P) (v39_apply V0 P) (fun _ => rfl) (fun _ => rfl) k) c

theorem v74_apply (P : Fin 100000) (q : Fin 1) : res_main_v74 V0 (ix2 P q) = mean d128 (zL V0 (a0 V0 P) 0) := by
  unfold res_main_v74
  exact hostMeanCol_apply (res_main_v66 V0) P _ (v66_apply V0 P) q

theorem v76_apply (P : Fin 100000) (c : Fin 128) : res_main_v76 V0 (ix2 P c) = dev d128 (zL V0 (a0 V0 P) 0) c := by
  unfold res_main_v76
  exact hostCentred_apply (res_main_v66 V0) (res_main_v74 V0) P _ (v66_apply V0 P) (v74_apply V0 P) c

/-! ## The third layer -/

theorem v103_apply (P : Fin 100000) (c : Fin 128) : res_main_v103 V0 (ix2 P c) = zL V0 (aL V0 (a0 V0 P) 0) 1 c := by
  unfold res_main_v103
  exact hostHidden_apply V0 _ 1 1 rfl slices_S3x128x128_S1x128x128_1_0_0 slices_S3x128_S1x128_1_0 P (aL V0 (a0 V0 P) 0)
    (fun k => hostAct_apply (res_main_v66 V0) (res_main_v74 V0) (res_main_v76 V0) _ _ P (zL V0 (a0 V0 P) 0) _ _
      (v66_apply V0 P) (v74_apply V0 P) (v76_apply V0 P)
      (fun q => rowOf (aG V0) 0 0 rfl slices_S3x128_S1x128_0_0 q) (fun q => rowOf (aBe V0) 0 0 rfl slices_S3x128_S1x128_0_0 q) k) c

theorem v111_apply (P : Fin 100000) (q : Fin 1) : res_main_v111 V0 (ix2 P q) = mean d128 (zL V0 (aL V0 (a0 V0 P) 0) 1) := by
  unfold res_main_v111
  exact hostMeanCol_apply (res_main_v103 V0) P _ (v103_apply V0 P) q

theorem v113_apply (P : Fin 100000) (c : Fin 128) : res_main_v113 V0 (ix2 P c) = dev d128 (zL V0 (aL V0 (a0 V0 P) 0) 1) c := by
  unfold res_main_v113
  exact hostCentred_apply (res_main_v103 V0) (res_main_v111 V0) P _ (v103_apply V0 P) (v111_apply V0 P) c

/-! ## The fourth layer -/

theorem v140_apply (P : Fin 100000) (c : Fin 128) :
    res_main_v140 V0 (ix2 P c) = zL V0 (aL V0 (aL V0 (a0 V0 P) 0) 1) 2 c := by
  unfold res_main_v140
  exact hostHidden_apply V0 _ 2 2 rfl slices_S3x128x128_S1x128x128_2_0_0 slices_S3x128_S1x128_2_0 P (aL V0 (aL V0 (a0 V0 P) 0) 1)
    (fun k => hostAct_apply (res_main_v103 V0) (res_main_v111 V0) (res_main_v113 V0) _ _ P (zL V0 (aL V0 (a0 V0 P) 0) 1) _ _
      (v103_apply V0 P) (v111_apply V0 P) (v113_apply V0 P)
      (fun q => rowOf (aG V0) 1 1 rfl slices_S3x128_S1x128_1_0 q) (fun q => rowOf (aBe V0) 1 1 rfl slices_S3x128_S1x128_1_0 q) k) c

theorem v148_apply (P : Fin 100000) (q : Fin 1) :
    res_main_v148 V0 (ix2 P q) = mean d128 (zL V0 (aL V0 (aL V0 (a0 V0 P) 0) 1) 2) := by
  unfold res_main_v148
  exact hostMeanCol_apply (res_main_v140 V0) P _ (v140_apply V0 P) q

theorem v150_apply (P : Fin 100000) (c : Fin 128) :
    res_main_v150 V0 (ix2 P c) = dev d128 (zL V0 (aL V0 (aL V0 (a0 V0 P) 0) 1) 2) c := by
  unfold res_main_v150
  exact hostCentred_apply (res_main_v140 V0) (res_main_v148 V0) P _ (v140_apply V0 P) (v148_apply V0 P) c

/-! ## The result -/

/-- The reference's result buffer after its run is the node network of the arguments as launched. -/
theorem result_eq' : val4 V0 (Proc.devRef .tc main_v169)
    = G (MIr V0) (MOr V0) (aX V0) (aW0 V0) (aB0 V0) (aG0 V0) (aBe0 V0) (aW V0) (aB V0) (aG V0) (aBe V0) := by
  rw [val4_main_v169]
  refine funext fun (i : S100000x128.Idx) => ?_
  obtain ⟨P, c, rfl⟩ : ∃ (P : Fin 100000) (c : Fin 128), i = ix2 P c := ⟨i 0, i 1, eq_ix2 i⟩
  rw [G_apply]
  exact hostAct_apply (res_main_v140 V0) (res_main_v148 V0) (res_main_v150 V0) _ _ P (zL V0 (aL V0 (aL V0 (a0 V0 P) 0) 1) 2) _ _
    (v140_apply V0 P) (v148_apply V0 P) (v150_apply V0 P)
    (fun q => rowOf (aG V0) 2 2 rfl slices_S3x128_S1x128_2_0 q) (fun q => rowOf (aBe V0) 2 2 rfl slices_S3x128_S1x128_2_0 q) c

/-- The same with the arguments' contents named. -/
theorem result_eq (x : FVec Ideal S100000x128 .f32) (e : FVec Ideal S1600000 .f32) (ei : IVec S2x1600000 32)
    (w0 : FVec Ideal S384x128 .f32) (b0 g0 be0 : FVec Ideal S128 .f32) (w : FVec Ideal S3x128x128 .f32) (b g be : FVec Ideal S3x128 .f32)
    (h0 : V0 (Proc.devRef .tc main_arg0) = x) (h1 : V0 (Proc.devRef .tc main_arg1) = e) (h2 : V0 (Proc.devRef .tc main_arg2) = ei)
    (h3 : V0 (Proc.devRef .tc main_arg3) = w0) (h4 : V0 (Proc.devRef .tc main_arg4) = b0) (h5 : V0 (Proc.devRef .tc main_arg5) = g0)
    (h6 : V0 (Proc.devRef .tc main_arg6) = be0) (h7 : V0 (Proc.devRef .tc main_arg7) = w) (h8 : V0 (Proc.devRef .tc main_arg8) = b)
    (h9 : V0 (Proc.devRef .tc main_arg9) = g) (h10 : V0 (Proc.devRef .tc main_arg10) = be) :
    val4 V0 (Proc.devRef .tc main_v169)
      = G (Cert.KernelIdeal.Agg.msgSum x e (Cert.KernelIdeal.Agg.starts ei) (Cert.KernelIdeal.Agg.ends ei))
          (Cert.KernelIdeal.Agg.msgSum x e (Cert.KernelIdeal.Agg.ends ei) (Cert.KernelIdeal.Agg.starts ei)) x w0 b0 g0 be0 w b g be := by
  subst h0 h1 h2 h3 h4 h5 h6 h7 h8 h9 h10
  exact result_eq' V0

end Cert.ReferenceIdeal.RefValue

end
-- ==== Proof.lean ====
/-
  A message-passing layer's node update: the kernel against its jnp reference, equal over the extended reals.

  Both programs first sum, for every node, the edge-weighted feature rows of its incoming and of its outgoing edges
  (the same host operations in both: `Agg.msgSum`, never opened).  The reference then lays the two sums and the node's
  features side by side, multiplies by a 384 × 128 matrix, and runs four rounds of "add a bias, normalise the row, scale,
  shift, tanh", the last three with a 128 × 128 product in front.  The kernel does the same for 4000 nodes at a time
  on the vector unit, with the first product taken as three 128 × 128 products added up.  A sum of 384 terms taken in
  three pieces is the same sum (associativity of + alone, so no finiteness is needed), a change of float format is the
  identity on the extended reals, and every later operation is the same exact operation on both sides; each output
  row depends on its own input rows only, so block t of the kernel's output is rows 4000·t … 4000·t + 3999 of the
  reference's.  `KernelBody` reads the kernel's block at an entry, `KernelBlocks` puts the 25 blocks together,
  `RefValue` reads the reference's run, and both arrive at `NodeMlp.G` of the arguments.
-/
import proofs.«101905_j14233521619351_2_alg».proof.Defs
import proofs.«101905_j14233521619351_2_alg».proof.Proof.Gen.Kernel
import proofs.«101905_j14233521619351_2_alg».proof.Proof.Gen.Kernel.Skeleton
import proofs.«101905_j14233521619351_2_alg».proof.Proof.Gen.Kernel.Launch
import proofs.«101905_j14233521619351_2_alg».proof.Proof.Gen.Kernel.Points
import proofs.«101905_j14233521619351_2_alg».proof.Proof.Gen.Kernel.Frame
import proofs.«101905_j14233521619351_2_alg».proof.Proof.Gen.KernelIdeal
import proofs.«101905_j14233521619351_2_alg».proof.Proof.Gen.KernelIdeal.Skeleton
import proofs.«101905_j14233521619351_2_alg».proof.Proof.Gen.KernelIdeal.Launch
import proofs.«101905_j14233521619351_2_alg».proof.Proof.Gen.KernelIdeal.Points
import proofs.«101905_j14233521619351_2_alg».proof.Proof.Gen.KernelIdeal.Frame
import proofs.«101905_j14233521619351_2_alg».proof.Proof.Gen.ReferenceIdeal
import proofs.«101905_j14233521619351_2_alg».proof.Proof.Gen.Pre_finite_inputs
import proofs.«101905_j14233521619351_2_alg».proof.Proof.Gen.KernelIdeal.Value
import proofs.«101905_j14233521619351_2_alg».proof.Proof.Gen.ReferenceIdeal.Run
import proofs.«101905_j14233521619351_2_alg».proof.Proof.KernelBlocks
import proofs.«101905_j14233521619351_2_alg».proof.Proof.RefValue
import Idealize.ShloMosaic.Adequacy
import Idealize.ShloMosaic.Init

noncomputable section

namespace Cert.Proof

open Idealize.ShloMosaic Idealize.SL.Sem Idealize.ShloMosaic.StableHlo

/-- The kernel's program runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the node network of the arguments in their
    result arrays. -/
theorem algebraic : Cert.algebraic_KernelIdeal_ReferenceIdeal := by
  intro m ρ m' ρ' _ hagree
  refine ⟨fun c => Cert.KernelIdeal.Blocks.out m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  refine (Cert.ReferenceIdeal.Value.val4_main_v169 (launchContents m' c)).symm.trans ?_
  exact Cert.ReferenceIdeal.RefValue.result_eq (launchContents m' c) _ _ _ _ _ _ _ _ _ _ _ h0 h1 h2 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
